-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S5000x128 : Shape := ⟨2, ![5000, 128]⟩
abbrev S5000x1 : Shape := ⟨2, ![5000, 1]⟩
abbrev S650000x128 : Shape := ⟨2, ![650000, 128]⟩
abbrev S1x128 : Shape := ⟨2, ![1, 128]⟩

abbrev nBuf : Space → Nat
  | .hbm => 76
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S650000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S_, .i32⟩
  | .hbm, ⟨32, _⟩ => ⟨S650000, .i32⟩
  | .hbm, ⟨33, _⟩ => ⟨S650000, .i1⟩
  | .hbm, ⟨34, _⟩ => ⟨S_, .i32⟩
  | .hbm, ⟨35, _⟩ => ⟨S650000, .i32⟩
  | .hbm, ⟨36, _⟩ => ⟨S650000, .i32⟩
  | .hbm, ⟨37, _⟩ => ⟨S650000, .i32⟩
  | .hbm, ⟨38, _⟩ => ⟨S650000x1, .i32⟩
  | .hbm, ⟨39, _⟩ => ⟨S650000x128, .f32⟩
  | .hbm, ⟨40, _⟩ => ⟨S_, .f32⟩
  | .hbm, ⟨41, _⟩ => ⟨S50000x128, .f32⟩
  | .hbm, ⟨42, _⟩ => ⟨S650000x1, .i32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S_, .i32⟩
  | .hbm, ⟨47, _⟩ => ⟨S650000, .i32⟩
  | .hbm, ⟨48, _⟩ => ⟨S650000, .i1⟩
  | .hbm, ⟨49, _⟩ => ⟨S_, .i32⟩
  | .hbm, ⟨50, _⟩ => ⟨S650000, .i32⟩
  | .hbm, ⟨51, _⟩ => ⟨S650000, .i32⟩
  | .hbm, ⟨52, _⟩ => ⟨S650000, .i32⟩
  | .hbm, ⟨53, _⟩ => ⟨S650000x1, .i32⟩
  | .hbm, ⟨54, _⟩ => ⟨S650000x128, .f32⟩
  | .hbm, ⟨55, _⟩ => ⟨S_, .f32⟩
  | .hbm, ⟨56, _⟩ => ⟨S50000x128, .f32⟩
  | .hbm, ⟨57, _⟩ => ⟨S650000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S_, .i32⟩
  | .hbm, ⟨62, _⟩ => ⟨S650000, .i32⟩
  | .hbm, ⟨63, _⟩ => ⟨S650000, .i1⟩
  | .hbm, ⟨64, _⟩ => ⟨S_, .i32⟩
  | .hbm, ⟨65, _⟩ => ⟨S650000, .i32⟩
  | .hbm, ⟨66, _⟩ => ⟨S650000, .i32⟩
  | .hbm, ⟨67, _⟩ => ⟨S650000, .i32⟩
  | .hbm, ⟨68, _⟩ => ⟨S650000x1, .i32⟩
  | .hbm, ⟨69, _⟩ => ⟨S650000x128, .f32⟩
  | .hbm, ⟨70, _⟩ => ⟨S_, .f32⟩
  | .hbm, ⟨71, _⟩ => ⟨S50000x128, .f32⟩
  | .hbm, ⟨72, _⟩ => ⟨S650000x1, .i32⟩
  | .hbm, ⟨73, _⟩ => ⟨S50000x128, .f32⟩
  | .hbm, ⟨74, _⟩ => ⟨S1x128, .f32⟩
  | .hbm, ⟨75, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S50000x128, .f32⟩
  | .hbm, ⟨49, _⟩ => ⟨S650000x1, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x128, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S650000x1, .f32⟩
  | .hbm, ⟨73, _⟩ => ⟨S_, .i32⟩
  | .hbm, ⟨74, _⟩ => ⟨S650000, .i32⟩
  | .hbm, ⟨75, _⟩ => ⟨S650000, .i1⟩
  | .hbm, ⟨76, _⟩ => ⟨S_, .i32⟩
  | .hbm, ⟨77, _⟩ => ⟨S650000, .i32⟩
  | .hbm, ⟨78, _⟩ => ⟨S650000, .i32⟩
  | .hbm, ⟨79, _⟩ => ⟨S650000, .i32⟩
  | .hbm, ⟨80, _⟩ => ⟨S650000x1, .i32⟩
  | .hbm, ⟨81, _⟩ => ⟨S650000x128, .f32⟩
  | .hbm, ⟨82, _⟩ => ⟨S650000x128, .f32⟩
  | .hbm, ⟨83, _⟩ => ⟨S650000x128, .f32⟩
  | .hbm, ⟨84, _⟩ => ⟨S_, .f32⟩
  | .hbm, ⟨85, _⟩ => ⟨S50000x128, .f32⟩
  | .hbm, ⟨86, _⟩ => ⟨S650000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S650000x1, .f32⟩
  | .hbm, ⟨96, _⟩ => ⟨S_, .i32⟩
  | .hbm, ⟨97, _⟩ => ⟨S650000, .i32⟩
  | .hbm, ⟨98, _⟩ => ⟨S650000, .i1⟩
  | .hbm, ⟨99, _⟩ => ⟨S_, .i32⟩
  | .hbm, ⟨100, _⟩ => ⟨S650000, .i32⟩
  | .hbm, ⟨101, _⟩ => ⟨S650000, .i32⟩
  | .hbm, ⟨102, _⟩ => ⟨S650000, .i32⟩
  | .hbm, ⟨103, _⟩ => ⟨S650000x1, .i32⟩
  | .hbm, ⟨104, _⟩ => ⟨S650000x128, .f32⟩
  | .hbm, ⟨105, _⟩ => ⟨S650000x128, .f32⟩
  | .hbm, ⟨106, _⟩ => ⟨S650000x128, .f32⟩
  | .hbm, ⟨107, _⟩ => ⟨S_, .f32⟩
  | .hbm, ⟨108, _⟩ => ⟨S50000x128, .f32⟩
  | .hbm, ⟨109, _⟩ => ⟨S650000x1, .i32⟩
  | .hbm, ⟨110, _⟩ => ⟨S50000x128, .f32⟩
  | .hbm, ⟨111, _⟩ => ⟨S1x128, .f32⟩
  | .hbm, ⟨112, _⟩ => ⟨S50000x128, .f32⟩
  | .hbm, ⟨113, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.Rounds.lean ====
/-
  Three rounds of normalised neighbourhood averaging, written two ways.

  A graph on N nodes is given by M directed edges: edge e reads node `src e` and adds into node `dst e` (an edge
  whose target number is outside 0 … N − 1 adds nowhere). Each node v carries a weight `dinv v` — the inverse square
  root of its in-degree, or zero. One round takes node features z (N rows of D numbers) to

      out (v, j) = Σ_{e : dst e = v}  norm e · z (src e, j)  +  b j,        norm e = dinv (src e) · dinv (dstc e),

  where `dstc e` is the target of e as a row of the weight table. The first way forms `norm` per edge and sums
  the scaled rows (`byEdges`). The second way scales the rows first, sums them unscaled, and scales the sum by the target's own weight afterwards
  (`byNodes`):  dinv v · Σ_{e : dst e = v} (dinv (src e) · z (src e, j)) + b j.
  The two agree whenever every weight is a nonnegative real number and `dstc e = v` on every edge that lands on
  v: a nonnegative real factor distributes over a sum of extended reals, and products of extended reals commute and
  associate. No finiteness of the features is needed.
-/
import Mathlib.Data.EReal.Operations
import Mathlib.Data.EReal.Inv
import Mathlib.Algebra.BigOperators.Group.Finset.Basic
import Mathlib.Data.Fintype.BigOperators
import Mathlib.Data.Fin.Basic
import Mathlib.Data.Fintype.Fin

noncomputable section

namespace Cert.Gcn

open scoped BigOperators

variable {N M D : Nat}

/-- The rows landing on node `v`, summed column by column onto a zero. -/
def agg (dst : Fin M → Int) (u : Fin M → Fin D → EReal) (v : Fin N) (j : Fin D) : EReal :=
  0 + ∑ e : Fin M, if dst e = (v.val : Int) then u e j else 0

/-- The dense product `h · W`. -/
def mm (h : Fin N → Fin D → EReal) (W : Fin D → Fin D → EReal) (v : Fin N) (j : Fin D) : EReal :=
  ∑ k : Fin D, h v k * W k j

/-- `max x 0`, entry by entry. -/
def relu (x : Fin N → Fin D → EReal) (v : Fin N) (j : Fin D) : EReal := max (x v j) 0

/-- Every row scaled by its node's weight. -/
def scaled (dinv : Fin N → EReal) (z : Fin N → Fin D → EReal) (v : Fin N) (j : Fin D) : EReal := dinv v * z v j

/-- One round, the sum scaled afterwards: `dinv v · Σ_{e → v} y (src e, j) + b j` of rows `y` scaled beforehand. -/
def byNodes (dinv : Fin N → EReal) (src : Fin M → Fin N) (dst : Fin M → Int) (b : Fin D → EReal)
    (y : Fin N → Fin D → EReal) (v : Fin N) (j : Fin D) : EReal :=
  dinv v * agg dst (fun e j => y (src e) j) v j + b j

/-- One round, edge by edge: `Σ_{e → v} norm e · z (src e, j) + b j`. -/
def byEdges (norm : Fin M → EReal) (src : Fin M → Fin N) (dst : Fin M → Int) (b : Fin D → EReal)
    (z : Fin N → Fin D → EReal) (v : Fin N) (j : Fin D) : EReal :=
  agg dst (fun e j => norm e * z (src e) j) v j + b j

/-- Three rounds, the weights applied node by node around each dense product. -/
def nodewise (dinv : Fin N → EReal) (src : Fin M → Fin N) (dst : Fin M → Int)
    (x : Fin N → Fin D → EReal) (W1 : Fin D → Fin D → EReal) (b1 : Fin D → EReal) (W2 : Fin D → Fin D → EReal)
    (b2 : Fin D → EReal) (W3 : Fin D → Fin D → EReal) (b3 : Fin D → EReal) : Fin N → Fin D → EReal :=
  byNodes dinv src dst b3 (scaled dinv (mm (relu (byNodes dinv src dst b2 (scaled dinv (mm (relu
    (byNodes dinv src dst b1 (scaled dinv (mm x W1)))) W2)))) W3))

/-- Three rounds, the weights applied edge by edge. -/
def edgewise (dinv : Fin N → EReal) (src : Fin M → Fin N) (dstc : Fin M → Fin N) (dst : Fin M → Int)
    (x : Fin N → Fin D → EReal) (W1 : Fin D → Fin D → EReal) (b1 : Fin D → EReal) (W2 : Fin D → Fin D → EReal)
    (b2 : Fin D → EReal) (W3 : Fin D → Fin D → EReal) (b3 : Fin D → EReal) : Fin N → Fin D → EReal :=
  byEdges (fun e => dinv (src e) * dinv (dstc e)) src dst b3 (mm (relu (byEdges (fun e => dinv (src e) * dinv (dstc e)) src dst b2
    (mm (relu (byEdges (fun e => dinv (src e) * dinv (dstc e)) src dst b1 (mm x W1))) W2))) W3)

/-- A nonnegative real factor moves inside a finite sum of extended reals. -/
theorem mul_sum_of_nonneg {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- ONE ROUND, BOTH WAYS: scaling the rows first and the sum afterwards is the edge-by-edge weighting. -/
theorem byNodes_scaled (dinv : Fin N → EReal) (src dstc : Fin M → Fin N) (dst : Fin M → Int) (b : Fin D → EReal)
    (h0 : ∀ v, 0 ≤ dinv v) (ht : ∀ v, dinv v ≠ ⊤)
    (hd : ∀ (e : Fin M) (v : Fin N), dst e = (v.val : Int) → dstc e = v) (z : Fin N → Fin D → EReal) :
    byNodes dinv src dst b (scaled dinv z) = byEdges (fun e => dinv (src e) * dinv (dstc e)) src dst b z := by
  funext v j
  unfold byNodes byEdges agg scaled
  congr 1
  rw [EReal.left_distrib_of_nonneg_of_ne_top (h0 v) (ht v), mul_zero, mul_sum_of_nonneg _ _ (h0 v) (ht v)]
  congr 1
  refine Finset.sum_congr rfl fun e _ => ?_
  by_cases he : dst e = (v.val : Int)
  · rw [if_pos he, if_pos he]
    show dinv v * (dinv (src e) * z (src e) j) = dinv (src e) * dinv (dstc e) * z (src e) j
    rw [hd e v he, mul_comm (dinv (src e)) (dinv v), mul_assoc]
  · rw [if_neg he, if_neg he, mul_zero]

/-- THREE ROUNDS, BOTH WAYS. -/
theorem nodewise_eq_edgewise (dinv : Fin N → EReal) (src dstc : Fin M → Fin N) (dst : Fin M → Int)
    (h0 : ∀ v, 0 ≤ dinv v) (ht : ∀ v, dinv v ≠ ⊤)
    (hd : ∀ (e : Fin M) (v : Fin N), dst e = (v.val : Int) → dstc e = v)
    (x : Fin N → Fin D → EReal) (W1 : Fin D → Fin D → EReal) (b1 : Fin D → EReal) (W2 : Fin D → Fin D → EReal)
    (b2 : Fin D → EReal) (W3 : Fin D → Fin D → EReal) (b3 : Fin D → EReal) :
    nodewise dinv src dst x W1 b1 W2 b2 W3 b3 = edgewise dinv src dstc dst x W1 b1 W2 b2 W3 b3 := by
  unfold nodewise edgewise
  rw [byNodes_scaled dinv src dstc dst b1 h0 ht hd, byNodes_scaled dinv src dstc dst b2 h0 ht hd,
    byNodes_scaled dinv src dstc dst b3 h0 ht hd]

end Cert.Gcn

end
-- ==== Proof.Graph.lean ====
/-
  The graph's bookkeeping as arrays, and what the three rounds read from it.

  From the 2 × 600000 table of edge ends, both programs build the same integer and float arrays before any feature
  is touched: the 650000 source numbers and the 650000 target numbers (the edges' ends followed by one self-loop
  per node), the in-degree of every node (a one added at each target), and the node weight `dinv` — the inverse
  square root of the degree where the degree is positive, zero elsewhere. A source number is used as a row of a
  table after the usual normalisation of an index (a negative number has the table's height added, and the result is
  clamped into the table); a target number is used raw where rows are accumulated (a number outside the table
  adds nowhere). This module names those arrays once, and the functions the rounds read from them.
-/
import proofs.«182050_j75342316306432_2_alg».proof.ReferenceIdeal
import proofs.«182050_j75342316306432_2_alg».proof.Proof.Gen.ReferenceIdeal
import Idealize.ShloMosaic.PureOps.Ideal
import Idealize.ShloMosaic.Lib.ValueIdx

noncomputable section

namespace Cert.Graph

open Idealize.ShloMosaic Idealize.ShloMosaic.ValueIdx Cert.ReferenceIdeal Cert.ReferenceIdeal.Facts₀

/-- The source numbers: row 0 of the table, then 0 … 49999. -/
def srcArr (e : IVec S2x600000 32) : IVec S650000 32 :=
  concatenate S650000 0 [⟨S600000, shapeCast S600000 (extractStridedSlice S1x600000 ![0, 0] e slices_S2x600000_S1x600000_0_0) shapeCasts_S1x600000_S600000⟩, ⟨S50000, iotaInDim S50000 32 0⟩] concatenates_S600000_S50000_S650000_d0

/-- The target numbers: row 1 of the table, then 0 … 49999. -/
def dstArr (e : IVec S2x600000 32) : IVec S650000 32 :=
  concatenate S650000 0 [⟨S600000, shapeCast S600000 (extractStridedSlice S1x600000 ![1, 0] e slices_S2x600000_S1x600000_1_0) shapeCasts_S1x600000_S600000⟩, ⟨S50000, iotaInDim S50000 32 0⟩] concatenates_S600000_S50000_S650000_d0

/-- A vector of numbers as a column, raw. -/
def rawCol (a : IVec S650000 32) : IVec S650000x1 32 := broadcastInDim S650000x1 ![0] bcast_S650000_S650000x1_0 a

/-- A vector of numbers as a column, a negative number moved up by the table's height first. -/
def wrapCol (a : IVec S650000 32) : IVec S650000x1 32 :=
  broadcastInDim S650000x1 ![0] bcast_S650000_S650000x1_0
    (select (cmpi .slt a (broadcastInDim S650000 ![] bcast_S_S650000 (constantI S_ 32 0#32)))
      (addi a (broadcastInDim S650000 ![] bcast_S_S650000 (constantI S_ 32 50000#32))) a)

/-- The in-degrees: a one added at every target number that is a node. -/
def degArr (d : IVec S650000 32) : FVec Ideal S50000 .f32 :=
  Host.scatterAdd (F := Ideal) scatter_S50000_S650000x1_S650000_n_0_0_1
    (broadcastInDim S50000 ![] bcast_S_S50000 (constant (F := Ideal) S_ .f32 0x00000000#32)) (rawCol d)
    (broadcastInDim S650000 ![] bcast_S_S650000 (constant (F := Ideal) S_ .f32 0x3F800000#32))

/-- The node weights: `rsqrt` of the degree where it is positive, zero elsewhere. -/
def dinvArr (d : IVec S650000 32) : FVec Ideal S50000 .f32 :=
  select (cmpf .ogt (degArr d) (broadcastInDim S50000 ![] bcast_S_S50000 (constant (F := Ideal) S_ .f32 0x00000000#32)))
    (Host.rsqrt (F := Ideal) (degArr d))
    (broadcastInDim S50000 ![] bcast_S_S50000 (id (constant (F := Ideal) S_ .f32 0x00000000#32)))

/-- The row of a 50000-row table that a column's `k`-th number names: read signed, clamped into 0 … 49999. -/
def rowOf (col : IVec S650000x1 32) (k : Fin 650000) : Fin 50000 :=
  ⟨min (col (ix2 k (0 : Fin 1))).toInt.toNat (50000 - 1), by omega⟩

/-- Node `v`'s weight. -/
def dinvOf (e : IVec S2x600000 32) (v : Fin 50000) : EReal := dinvArr (dstArr e) (ix1 v)
/-- The node edge `k` reads. -/
def srcOf (e : IVec S2x600000 32) : Fin 650000 → Fin 50000 := rowOf (wrapCol (srcArr e))
/-- The row of the weight table edge `k`'s target names. -/
def dstcOf (e : IVec S2x600000 32) : Fin 650000 → Fin 50000 := rowOf (wrapCol (dstArr e))
/-- Edge `k`'s target number, read signed. -/
def dstOf (e : IVec S2x600000 32) (k : Fin 650000) : Int := (rawCol (dstArr e) (ix2 k (0 : Fin 1))).toInt

end Cert.Graph

end
-- ==== Proof.LibVecScatter.lean ====
/-
  Accumulating scalars into a vector at given positions.

  * `scatter_add_apply`: a scatter whose combining function is the addition of a commutative monoid, run as a left
    fold over the update entries in any fixed order, leaves at each operand entry the operand's value plus the sum of
    the update entries that land on it — whatever the dimension numbers. (An update that lands outside the operand
    contributes nothing.)
  * For an operand that is a vector of length `N`, a column of `R` positions (an `R × 1` integer array) and `R`
    scalar updates: update `e` lands on entry `r` exactly when the `e`-th position, read as a signed integer, is
    `r` (`vec_resultIdx?_eq_some_iff`). So the result at `r` is the operand's entry plus the sum of the updates
    whose position is `r`: for machine words (`scatter_addi_vec_apply`, a histogram when the updates are ones) and
    for extended reals (`host_scatterAdd_vec_apply`).
-/
import Idealize.ShloMosaic.PureOps.Ideal
import Idealize.ShloMosaic.PureOps.Contract
import Idealize.ShloMosaic.Lib.ValueIdx
import Mathlib

noncomputable section

namespace Idealize.ShloMosaic.VecScatter

open Idealize.ShloMosaic Idealize.ShloMosaic.ValueIdx

/-- A left fold whose every step adds, at each entry, the update exactly when it lands there: at a fixed entry `i`
    the fold leaves the starting value plus the sum of the updates landing on `i`. -/
theorem fold_step_apply {α : Type*} [AddCommMonoid α] {S : Type*} [DecidableEq S] {ι : Type*}
    (land : ι → Option S) (upd : ι → α) (step : (S → α) → ι → (S → α))
    (hstep : ∀ r n i, step r n i = r i + (if land n = some i then upd n else 0))
    (l : List ι) (r : S → α) (i : S) :
    (l.foldl step r) i = r i + (l.map fun n => if land n = some i then upd n else 0).sum := by
  induction l generalizing r with
  | nil => simp
  | cons n l ih => rw [List.foldl_cons, ih, hstep, List.map_cons, List.sum_cons, add_assoc]

/-- A scatter that ADDS, read at an operand entry: the entry plus the sum of the updates landing on it. -/
theorem scatter_add_apply {α : Type} [AddCommMonoid α] {s si u : Shape} {w : Nat} (d : ScatterDims s si u)
    (f : α → α → α) (hf : ∀ a b, f a b = a + b)
    (x : s.Idx → α) (idx : IVec si w) (upd : u.Idx → α) (i : s.Idx) :
    Host.scatter d f x idx upd i
      = x i + ∑ j ∈ Finset.univ.filter (fun j => d.resultIdx? j idx = some i), upd j := by
  unfold Host.scatter
  rw [fold_step_apply (fun n : Fin u.numel => d.resultIdx? (u.rowMajor.symm n) idx)
    (fun n => upd (u.rowMajor.symm n)) _ (by
      intro r n i'
      show (match d.resultIdx? (u.rowMajor.symm n) idx with
        | some i0 => fun i'' => if i'' = i0 then f (r i0) (upd (u.rowMajor.symm n)) else r i''
        | none => r) i' = _
      cases d.resultIdx? (u.rowMajor.symm n) idx with
      | none => simp
      | some i0 =>
        show (if i' = i0 then f (r i0) (upd (u.rowMajor.symm n)) else r i') = _
        by_cases h : i' = i0
        · subst h; rw [if_pos rfl, hf, if_pos rfl]
        · rw [if_neg h, if_neg (fun e => h (Option.some.inj e).symm), add_zero])]
  rw [← Fin.sum_univ_def, Finset.sum_filter]
  congr 1
  exact (Equiv.sum_comp u.rowMajor.symm (fun j => if d.resultIdx? j idx = some i then upd j else 0))

/-! ## A vector operand, a column of positions, scalar updates -/

/-- The dimension numbers of scattering `R` scalars into a length-`N` vector at an `R × 1` column of positions. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- The window of update `e` starts at the `e`-th position, read signed. -/
theorem vec_start (idx : IVec ⟨2, ![R, 1]⟩ w) (e : Fin R) :
    (vecDims N R wf).start (ix1 e) idx 0 = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: no window coordinate. -/
theorem vec_window (j : (⟨1, ![R]⟩ : Shape).Idx) : (vecDims N R wf).window j 0 = 0 := by
  unfold ScatterDims.window
  rw [dif_neg (show ¬ (0 : Fin 1) ∈ (vecDims N R wf).sKept from by
    show ¬ (0 : Fin 1) ∈ ([] : List (Fin 1)); exact List.not_mem_nil)]

/-- WHERE AN UPDATE LANDS: update `e` lands on entry `i` exactly when the `e`-th position, read signed, is `i`. -/
theorem vec_resultIdx?_eq_some_iff (idx : IVec ⟨2, ![R, 1]⟩ w) (e : Fin R) (i : (⟨1, ![N]⟩ : Shape).Idx) :
    (vecDims N R wf).resultIdx? (ix1 e) idx = some i ↔ (idx (ix2 e (0 : Fin 1))).toInt = ((i 0).val : Int) := by
  have hs0 := vec_start wf idx e
  have hw0 := vec_window wf (ix1 e)
  have hi0 : (i 0).val < N := (i 0).isLt
  unfold ScatterDims.resultIdx?
  split
  · rename_i h
    rw [Option.some.injEq]
    have h0 := h 0
    rw [hs0, hw0] at h0
    constructor
    · intro he
      have e0 : ((vecDims N R wf).start (ix1 e) idx 0 + ((vecDims N R wf).window (ix1 e) 0 : Nat)).toNat = (i 0).val :=
        congrArg (fun f : (⟨1, ![N]⟩ : Shape).Idx => (f 0).val) he
      rw [hs0, hw0] at e0
      omega
    · intro g0
      funext a; apply Fin.ext
      match a with
      | ⟨0, _⟩ =>
        show ((vecDims N R wf).start (ix1 e) idx 0 + ((vecDims N R wf).window (ix1 e) 0 : Nat)).toNat = (i 0).val
        rw [hs0, hw0]; omega
  · rename_i h
    constructor
    · intro he; cases he
    · intro g0
      exfalso; apply h
      intro a
      match a with
      | ⟨0, _⟩ =>
        show 0 ≤ (vecDims N R wf).start (ix1 e) idx 0 + ((vecDims N R wf).window (ix1 e) 0 : Nat)
          ∧ (vecDims N R wf).start (ix1 e) idx 0 + ((vecDims N R wf).window (ix1 e) 0 : Nat) < (N : Int)
        rw [hs0, hw0]; omega

/-- A sum over the rank-one indices is the sum over their coordinate. -/
theorem sum_idx1 {M : Type*} [AddCommMonoid M] {n : Nat} (f : (⟨1, ![n]⟩ : Shape).Idx → M) :
    ∑ j, f j = ∑ k : Fin n, f (ix1 k) := by
  refine (Equiv.sum_comp (⟨fun k => ix1 k, fun j => j 0, fun k => rfl, fun j => (eq_ix1 j).symm⟩ :
    Fin n ≃ (⟨1, ![n]⟩ : Shape).Idx) f).symm

/-- The sum of the updates landing on entry `r`, as a sum over the update's number. -/
theorem sum_landing {M : Type*} [AddCommMonoid M] (idx : IVec ⟨2, ![R, 1]⟩ w) (upd : (⟨1, ![R]⟩ : Shape).Idx → M) (r : Fin N) :
    ∑ j ∈ Finset.univ.filter (fun j => (vecDims N R wf).resultIdx? j idx = some (ix1 r)), upd j
      = ∑ e : Fin R, if (idx (ix2 e (0 : Fin 1))).toInt = (r.val : Int) then upd (ix1 e) else 0 := by
  rw [Finset.sum_filter, sum_idx1]
  refine Finset.sum_congr rfl fun e _ => ?_
  have := vec_resultIdx?_eq_some_iff wf idx e (ix1 r)
  by_cases h : (idx (ix2 e (0 : Fin 1))).toInt = (r.val : Int)
  · rw [if_pos (this.mpr h), if_pos h]
  · rw [if_neg (fun hh => h (this.mp hh)), if_neg h]

/-- Words added into a vector at positions: the entry plus the sum of the updates whose position is `r`. -/
theorem scatter_addi_vec_apply {b : Nat} (x : (⟨1, ![N]⟩ : Shape).Idx → BitVec b) (idx : IVec ⟨2, ![R, 1]⟩ w)
    (upd : (⟨1, ![R]⟩ : Shape).Idx → BitVec b) (r : Fin N) :
    Host.scatter (vecDims N R wf) IntOp.addi x idx upd (ix1 r)
      = x (ix1 r) + ∑ e : Fin R, if (idx (ix2 e (0 : Fin 1))).toInt = (r.val : Int) then upd (ix1 e) else 0 := by
  rw [scatter_add_apply (vecDims N R wf) IntOp.addi (fun _ _ => rfl), sum_landing]

/-- Extended reals added into a vector at positions. -/
theorem host_scatterAdd_vec_apply (x : FVec Ideal ⟨1, ![N]⟩ .f32) (idx : IVec ⟨2, ![R, 1]⟩ w)
    (upd : FVec Ideal ⟨1, ![R]⟩ .f32) (r : Fin N) :
    Host.scatterAdd (F := Ideal) (vecDims N R wf) x idx upd (ix1 r)
      = x (ix1 r) + ∑ e : Fin R, if (idx (ix2 e (0 : Fin 1))).toInt = (r.val : Int) then upd (ix1 e) else 0 := by
  show Ideal.hostScatterAdd (vecDims N R wf) x idx upd (ix1 r) = _
  unfold Ideal.hostScatterAdd
  rw [sum_landing]

end Idealize.ShloMosaic.VecScatter

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.GraphFacts.lean ====
/-
  Two facts about the graph's arrays that the three rounds rest on.

  * Every node weight is a nonnegative real number. The degree of a node is a zero plus a sum of ones and zeros, a
    real number; where it is positive its inverse square root is a positive real, and elsewhere the weight is zero.
  * An edge that lands on node `v` — its target number, read signed, is `v` — names row `v` of the weight table:
    a nonnegative number is left alone by the normalisation of an index, and a number below the table's height by the
    clamp.
-/
import proofs.«182050_j75342316306432_2_alg».proof.Proof.Graph
import proofs.«182050_j75342316306432_2_alg».proof.Proof.LibVecScatter
import proofs.«182050_j75342316306432_2_alg».proof.Proof.LibRealValued
import Idealize.ShloMosaic.Lib.Pipeline.Value
import Idealize.ShloMosaic.Lib.ValueLayout
import Idealize.ShloMosaic.PureOps.Ideal.Laws

noncomputable section

namespace Cert.Graph

open Idealize.ShloMosaic Idealize.ShloMosaic.ValueIdx Cert.ReferenceIdeal Cert.ReferenceIdeal.Facts₀ Cert.RealValued

/-- A column made of a vector holds the vector's entry in each row. -/
theorem col_apply (a : IVec S650000 32) (k : Fin 650000) :
    broadcastInDim S650000x1 ![0] bcast_S650000_S650000x1_0 a (ix2 k (0 : Fin 1)) = a (ix1 k) :=
  broadcastInDim_apply _ _ a (ix2 k (0 : Fin 1)) (ix1 k) (fun x => by match x with | ⟨0, _⟩ => rfl)

theorem rawCol_apply (a : IVec S650000 32) (k : Fin 650000) : rawCol a (ix2 k (0 : Fin 1)) = a (ix1 k) :=
  col_apply a k

/-- A nonnegative number passes the normalisation of an index unchanged. -/
theorem wrapCol_apply_of_nonneg (a : IVec S650000 32) (k : Fin 650000) (h : 0 ≤ (a (ix1 k)).toInt) :
    wrapCol a (ix2 k (0 : Fin 1)) = a (ix1 k) := by
  unfold wrapCol
  rw [col_apply]
  have hlt : (a (ix1 k)).slt 0#32 = false := by
    simp only [BitVec.slt, BitVec.toInt_zero, decide_eq_false_iff_not, Int.not_lt]
    exact h
  show (if BitVec.ofBool ((a (ix1 k)).slt 0#32) = 1 then _ else _) = _
  rw [hlt]
  rfl

/-- AN EDGE LANDING ON `v` NAMES ROW `v`. -/
theorem dstcOf_of_dstOf (e : IVec S2x600000 32) (k : Fin 650000) (v : Fin 50000)
    (h : dstOf e k = (v.val : Int)) : dstcOf e k = v := by
  unfold dstOf at h
  rw [rawCol_apply] at h
  unfold dstcOf rowOf
  apply Fin.ext
  show min (wrapCol (dstArr e) (ix2 k (0 : Fin 1))).toInt.toNat (50000 - 1) = v.val
  rw [wrapCol_apply_of_nonneg _ _ (by rw [h]; exact Int.natCast_nonneg _), h]
  have hv : v.val < 50000 := v.isLt
  simp only [Int.toNat_natCast]
  omega

/-- The degree of a node is a real number. -/
theorem deg_isReal (d : IVec S650000 32) (v : Fin 50000) : IsReal (degArr d (ix1 v)) := by
  unfold degArr
  refine (Idealize.ShloMosaic.VecScatter.host_scatterAdd_vec_apply
    (N := 50000) (R := 650000) scatter_S50000_S650000x1_S650000_n_0_0_1_wf _ (rawCol d) _ v).symm ▸ ?_
  refine IsReal.add ?_ (isReal_sum _ _ fun k _ => ?_)
  · exact ieee_isReal 8 23 (0x00000000#32) (by decide)
  · split
    · exact ieee_isReal 8 23 (0x3F800000#32) (by decide)
    · exact isReal_zero

/-- The weight formed from a real degree is a nonnegative real number. -/
theorem weight_entry (g : FVec Ideal S50000 .f32) (v : Fin 50000) (r : ℝ) (hr : g (ix1 v) = (r : EReal)) :
    0 ≤ (select (cmpf .ogt g (broadcastInDim S50000 ![] bcast_S_S50000 (constant (F := Ideal) S_ .f32 0x00000000#32)))
        (Host.rsqrt (F := Ideal) g)
        (broadcastInDim S50000 ![] bcast_S_S50000 (id (constant (F := Ideal) S_ .f32 0x00000000#32)))) (ix1 v)
    ∧ (select (cmpf .ogt g (broadcastInDim S50000 ![] bcast_S_S50000 (constant (F := Ideal) S_ .f32 0x00000000#32)))
        (Host.rsqrt (F := Ideal) g)
        (broadcastInDim S50000 ![] bcast_S_S50000 (id (constant (F := Ideal) S_ .f32 0x00000000#32)))) (ix1 v) ≠ ⊤ := by
  have hz : Ideal.ofBits .f32 0x00000000#32 = (0 : EReal) := Ideal.ofBits_zero_f32
  show 0 ≤ (if Ideal.cmp .ogt (g (ix1 v)) (Ideal.ofBits .f32 0x00000000#32) = 1 then Ideal.rsqrt (g (ix1 v))
      else Ideal.ofBits .f32 0x00000000#32)
    ∧ (if Ideal.cmp .ogt (g (ix1 v)) (Ideal.ofBits .f32 0x00000000#32) = 1 then Ideal.rsqrt (g (ix1 v))
      else Ideal.ofBits .f32 0x00000000#32) ≠ ⊤
  rw [hr, hz]
  split
  · rename_i hpos
    have hr0 : (0 : ℝ) < r := by
      have h' : BitVec.ofBool (decide ((0 : ℝ) < r)) = 1#1 := by simpa [Ideal.cmp] using hpos
      by_contra hn
      rw [decide_eq_false hn] at h'
      exact absurd h' (by decide)
    rw [Ideal.rsqrt_coe, if_neg (not_lt.mpr hr0.le), if_neg hr0.ne']
    exact ⟨EReal.coe_nonneg.mpr (inv_nonneg.mpr (Real.sqrt_nonneg r)), EReal.coe_ne_top _⟩
  · exact ⟨le_refl _, EReal.zero_ne_top⟩

/-- EVERY NODE WEIGHT IS A NONNEGATIVE REAL NUMBER. -/
theorem dinvOf_nonneg_ne_top (e : IVec S2x600000 32) (v : Fin 50000) : 0 ≤ dinvOf e v ∧ dinvOf e v ≠ ⊤ := by
  obtain ⟨r, hr⟩ := deg_isReal (dstArr e) v
  exact weight_entry (degArr (dstArr e)) v r hr

end Cert.Graph

end
-- ==== Proof.LibRowGather.lean ====
/-
  A general fact about gathering whole rows of a matrix.

  Take a table with N rows and C columns and a column of R start indices (an R × 1 integer array). Gathering with one
  collapsed axis (the rows), one offset axis (the columns), the start index naming the row axis and slices of one
  whole row produces an R × C array whose entry (r, o) is the table's entry (k, o), where k is the r-th start index
  read as a signed integer and clamped into 0 … N − 1. Nothing here depends on a particular program.
-/
import Idealize.ShloMosaic.PureOps.Ideal
import Idealize.ShloMosaic.Lib.ValueIdx

noncomputable section

namespace Idealize.ShloMosaic.RowGather

open Idealize.ShloMosaic Idealize.ShloMosaic.ValueIdx

variable {α : Type}

/-- The dimension numbers of a whole-row gather from an `N × C` table at an `R × 1` column of start indices. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, o)` of a whole-row gather is the table's entry `(k, o)`, `k` the `r`-th start index read signed and
    clamped into `0 … N − 1`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (o : Fin C) :
    Host.gather (rowDims N R C wf) x idx (ix2 r o)
      = x (ix2 (⟨min (idx (ix2 r (0 : Fin 1))).toInt.toNat (N - 1), by omega⟩ : Fin N) o) := by
  unfold Host.gather
  congr 1
  funext a
  refine Fin.ext ?_
  match a with
  | ⟨0, _⟩ =>
    show (rowDims N R C wf).start (ix2 r o) idx 0 + (rowDims N R C wf).batchCoord (ix2 r o) 0
        + (rowDims N R C wf).offCoord (ix2 r o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r o) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r o) idx 1 + (rowDims N R C wf).batchCoord (ix2 r o) 1
        + (rowDims N R C wf).offCoord (ix2 r o) 1 = o.val
    rw [GatherDims.batchCoord_eq_zero _ _ _ List.not_mem_nil]
    unfold GatherDims.start
    rw [dif_neg (show ¬ (1 : Fin 2) ∈ (rowDims N R C wf).startIndexMap from
      fun h => absurd (List.mem_singleton.mp h) (show ¬ (1 : Fin 2) = 0 by decide))]
    simp only [Nat.add_zero, Nat.zero_add]
    rfl

end Idealize.ShloMosaic.RowGather

end
-- ==== Proof.LibRowScatterAdd.lean ====
/-
  A general fact about accumulating rows into a matrix.

  Take an operand with N rows and C columns, a column of R row numbers (an R × 1 integer array) and an R × C array of
  update rows. Scattering with one window axis (the columns), one inserted axis (the rows) and the row number naming
  the row axis adds update row e onto operand row k, where k is the e-th row number read as a signed integer; a row
  number outside 0 … N − 1 drops its update row. On the extended reals the result at (r, c) is therefore the operand's
  entry plus the sum, over the update rows e whose row number is r, of the update entry (e, c). Nothing here depends on
  a particular program.
-/
import Idealize.ShloMosaic.PureOps.Ideal
import Idealize.ShloMosaic.Lib.ValueIdx

noncomputable section

namespace Idealize.ShloMosaic.RowScatter

open Idealize.ShloMosaic Idealize.ShloMosaic.ValueIdx

/-- The dimension numbers of a whole-row accumulation into an `N × C` operand at an `R × 1` column of row numbers. -/
abbrev rowDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the row axis the window of update entry `(e, c)` starts at the `e`-th row number, read signed. -/
theorem start_row (idx : IVec ⟨2, ![R, 1]⟩ w) (e : Fin R) (c : Fin C) :
    (rowDims N R C wf).start (ix2 e c) idx 0 = (idx (ix2 e (0 : Fin 1))).toInt := by
  unfold ScatterDims.start
  rw [dif_pos (show (0 : Fin 2) ∈ (rowDims N R C wf).scatterDimsToOperandDims from List.mem_singleton.mpr rfl)]
  have hsi : (rowDims N R C wf).siIdx (ix2 e c) ⟨List.idxOf (0 : Fin 2) (rowDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at 0. -/
theorem start_col (idx : IVec ⟨2, ![R, 1]⟩ w) (j : (⟨2, ![R, C]⟩ : Shape).Idx) :
    (rowDims N R C wf).start j idx 1 = 0 := by
  unfold ScatterDims.start
  rw [dif_neg (show ¬ (1 : Fin 2) ∈ (rowDims N R C wf).scatterDimsToOperandDims from
    fun h => absurd (List.mem_singleton.mp h) (show ¬ (1 : Fin 2) = 0 by decide))]

/-- The operand's axes that are not inserted: the columns only. -/
theorem sKept_eq : (rowDims N R C wf).sKept = [(1 : Fin 2)] := rfl

/-- The row axis is inserted: no window coordinate. -/
theorem window_row (j : (⟨2, ![R, C]⟩ : Shape).Idx) : (rowDims N R C wf).window j 0 = 0 := by
  unfold ScatterDims.window
  rw [dif_neg (show ¬ (0 : Fin 2) ∈ (rowDims N R C wf).sKept from by
    rw [sKept_eq]; exact fun h => absurd (List.mem_singleton.mp h) (show ¬ (0 : Fin 2) = 1 by decide))]

/-- The column axis carries the update's column. -/
theorem window_col (e : Fin R) (c : Fin C) : (rowDims N R C wf).window (ix2 e c) 1 = c.val := by
  unfold ScatterDims.window
  rw [dif_pos (show (1 : Fin 2) ∈ (rowDims N R C wf).sKept from by
    rw [sKept_eq]; exact List.mem_singleton.mpr rfl)]
  rfl

/-- WHERE AN UPDATE ENTRY LANDS: update entry `(e, c)` lands on operand entry `i` exactly when the `e`-th row number, read
    signed, is `i`'s row and `c` is `i`'s column. (A row number outside the operand lands nowhere.) -/
theorem resultIdx?_eq_some_iff (idx : IVec ⟨2, ![R, 1]⟩ w) (e : Fin R) (c : Fin C) (i : (⟨2, ![N, C]⟩ : Shape).Idx) :
    (rowDims N R C wf).resultIdx? (ix2 e c) idx = some i
      ↔ (idx (ix2 e (0 : Fin 1))).toInt = ((i 0).val : Int) ∧ c.val = (i 1).val := by
  have hs0 := start_row wf idx e c
  have hs1 := start_col wf idx (ix2 e c)
  have hw0 := window_row wf (ix2 e c)
  have hw1 := window_col wf e c
  have hi0 : (i 0).val < N := (i 0).isLt
  have hi1 : (i 1).val < C := (i 1).isLt
  have hc : c.val < C := c.isLt
  unfold ScatterDims.resultIdx?
  split
  · rename_i h
    rw [Option.some.injEq]
    have h0 := h 0
    rw [hs0, hw0] at h0
    constructor
    · intro he
      have e0 : ((rowDims N R C wf).start (ix2 e c) idx 0 + ((rowDims N R C wf).window (ix2 e c) 0 : Nat)).toNat = (i 0).val :=
        congrArg (fun f : (⟨2, ![N, C]⟩ : Shape).Idx => (f 0).val) he
      have e1 : ((rowDims N R C wf).start (ix2 e c) idx 1 + ((rowDims N R C wf).window (ix2 e c) 1 : Nat)).toNat = (i 1).val :=
        congrArg (fun f : (⟨2, ![N, C]⟩ : Shape).Idx => (f 1).val) he
      rw [hs0, hw0] at e0
      rw [hs1, hw1] at e1
      constructor <;> omega
    · rintro ⟨g0, g1⟩
      funext a; apply Fin.ext
      match a with
      | ⟨0, _⟩ =>
        show ((rowDims N R C wf).start (ix2 e c) idx 0 + ((rowDims N R C wf).window (ix2 e c) 0 : Nat)).toNat = (i 0).val
        rw [hs0, hw0]; omega
      | ⟨1, _⟩ =>
        show ((rowDims N R C wf).start (ix2 e c) idx 1 + ((rowDims N R C wf).window (ix2 e c) 1 : Nat)).toNat = (i 1).val
        rw [hs1, hw1]; omega
  · rename_i h
    constructor
    · intro he; cases he
    · rintro ⟨g0, g1⟩
      exfalso; apply h
      intro a
      match a with
      | ⟨0, _⟩ =>
        show 0 ≤ (rowDims N R C wf).start (ix2 e c) idx 0 + ((rowDims N R C wf).window (ix2 e c) 0 : Nat)
          ∧ (rowDims N R C wf).start (ix2 e c) idx 0 + ((rowDims N R C wf).window (ix2 e c) 0 : Nat) < (N : Int)
        rw [hs0, hw0]; omega
      | ⟨1, _⟩ =>
        show 0 ≤ (rowDims N R C wf).start (ix2 e c) idx 1 + ((rowDims N R C wf).window (ix2 e c) 1 : Nat)
          ∧ (rowDims N R C wf).start (ix2 e c) idx 1 + ((rowDims N R C wf).window (ix2 e c) 1 : Nat) < (C : Int)
        rw [hs1, hw1]; omega

/-- THE ACCUMULATED ROWS AT AN ENTRY: the operand's entry plus the sum, over the update rows whose row number is
    `r`, of their entries in column `c`. -/
theorem scatterAdd_row_apply (x : (⟨2, ![N, C]⟩ : Shape).Idx → EReal) (idx : IVec ⟨2, ![R, 1]⟩ w)
    (upd : (⟨2, ![R, C]⟩ : Shape).Idx → EReal) (r : Fin N) (c : Fin C) :
    Ideal.hostScatterAdd (rowDims N R C wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  have hiff : ∀ c' : Fin C, ((rowDims N R C wf).resultIdx? (ix2 e c') idx = some (ix2 r c))
      ↔ ((idx (ix2 e (0 : Fin 1))).toInt = (r.val : Int) ∧ c' = c) := fun c' =>
    (resultIdx?_eq_some_iff wf idx e c' (ix2 r c)).trans (and_congr Iff.rfl Fin.val_inj)
  simp only [hiff]
  by_cases hr : (idx (ix2 e (0 : Fin 1))).toInt = (r.val : Int)
  · simp only [hr, true_and, if_true, Finset.sum_ite_eq', Finset.mem_univ]
  · simp only [hr, false_and, if_false, Finset.sum_const_zero]

/-- The same, spelt as the host's operation at the extended reals. -/
theorem host_scatterAdd_row_apply (x : FVec Ideal ⟨2, ![N, C]⟩ .f32) (idx : IVec ⟨2, ![R, 1]⟩ w)
    (upd : FVec Ideal ⟨2, ![R, C]⟩ .f32) (r : Fin N) (c : Fin C) :
    Host.scatterAdd (F := Ideal) (rowDims N R C wf) x idx upd (ix2 r c)
      = x (ix2 r c) + ∑ e : Fin R, if (idx (ix2 e (0 : Fin 1))).toInt = (r.val : Int) then upd (ix2 e c) else 0 :=
  scatterAdd_row_apply wf x idx upd r c

end Idealize.ShloMosaic.RowScatter

end
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.KernelHost.lean ====
/-
  The host stretches of the idealized kernel, read for an arbitrary starting valuation.

  Before its first region the program builds the graph's arrays (the 650000 source and target numbers, the
  degrees, the node weights as a 50000 × 1 column). Between two regions it gathers the rows of the previous
  region's result at the source numbers and accumulates them, unscaled, at the target numbers onto zeros
  (`aggArr`), and lays the next bias out as a 1 × 128 row. Every value a later stretch reads — the source and target
  numbers, the weight column, the arguments — is written by no later operation, so it is read back unchanged.
  Read at an entry, `aggArr` is the sum `Cert.Gcn.agg` over the edges landing on the row.
-/
import proofs.«182050_j75342316306432_2_alg».proof.Proof.Gen.KernelIdeal.Frame
import proofs.«182050_j75342316306432_2_alg».proof.Proof.Graph
import proofs.«182050_j75342316306432_2_alg».proof.Proof.Rounds
import proofs.«182050_j75342316306432_2_alg».proof.Proof.LibRowGather
import proofs.«182050_j75342316306432_2_alg».proof.Proof.LibRowScatterAdd
import proofs.«182050_j75342316306432_2_alg».proof.Proof.LibHostStretches
import Idealize.ShloMosaic.Lib.StableHlo.Run
import Idealize.ShloMosaic.PureOps.Ideal.Laws

set_option maxRecDepth 16384

noncomputable section

namespace Cert.KernelIdeal.Whole

open Idealize.ShloMosaic Idealize.ShloMosaic.TcCoe Idealize.ShloMosaic.ValueIdx Idealize.ShloMosaic.StableHlo Idealize.SL.Sem
open Cert.KernelIdeal Cert.KernelIdeal.Gen

/-- Rows of `y` gathered at the source numbers `s` and accumulated at the target numbers `d` onto zeros. -/
def aggArr (s d : IVec S650000 32) (y : FVec Ideal S50000x128 .f32) : FVec Ideal S50000x128 .f32 :=
  Host.scatterAdd (F := Ideal) scatter_S50000x128_S650000x1_S650000x128_1_0_0_1
    (broadcastInDim S50000x128 ![] bcast_S_S50000x128 (constant (F := Ideal) S_ .f32 0x00000000#32))
    (broadcastInDim S650000x1 ![0] bcast_S650000_S650000x1_0 d)
    (Host.gather gather_S50000x128_S650000x1_S650000x128_1_0_n_n_0_1_1128 y
      (broadcastInDim S650000x1 ![0] bcast_S650000_S650000x1_0
        (select (cmpi .slt s (broadcastInDim S650000 ![] bcast_S_S650000 (constantI S_ 32 0#32)))
          (addi s (broadcastInDim S650000 ![] bcast_S_S650000 (constantI S_ 32 50000#32))) s)))

variable (W : Valuation τ sig (Elt Ideal))

/-! ## Before the first region: the graph's arrays -/

theorem s0_v5 : after hostOps0 W (Proc.devRef .tc main_v5) = Cert.Graph.srcArr (W (Proc.devRef .tc main_arg1)) := by
  after_results
  rfl
theorem s0_v6 : after hostOps0 W (Proc.devRef .tc main_v6) = Cert.Graph.dstArr (W (Proc.devRef .tc main_arg1)) := by
  after_results
  rfl
theorem s0_v12 : after hostOps0 W (Proc.devRef .tc main_v12)
    = cmpf .ogt (Cert.Graph.degArr (Cert.Graph.dstArr (W (Proc.devRef .tc main_arg1))))
        (broadcastInDim S50000 ![] Facts₀.bcast_S_S50000 (constant (F := Ideal) S_ .f32 0x00000000#32)) := by
  after_results
  rfl
theorem s0_v13 : after hostOps0 W (Proc.devRef .tc main_v13)
    = Host.rsqrt (F := Ideal) (Cert.Graph.degArr (Cert.Graph.dstArr (W (Proc.devRef .tc main_arg1)))) := by
  after_results
  rfl
theorem s0_cst_2 : after hostOps0 W (Proc.devRef .tc main_cst_2) = constant (F := Ideal) S_ .f32 0x00000000#32 := by
  after_results
theorem s01_v14 : after hostOps0_1 W (Proc.devRef .tc main_v14)
    = select (W (Proc.devRef .tc main_v12)) (W (Proc.devRef .tc main_v13))
        (broadcastInDim S50000 ![] Facts₀.bcast_S_S50000 (id (W (Proc.devRef .tc main_cst_2)))) := by
  after_results
  simp only [Cert.HostLine.ofBuf_toBuf]
  rfl
theorem s02_v15 : after hostOps0_2 W (Proc.devRef .tc main_v15)
    = shapeCast S50000x1 (W (Proc.devRef .tc main_v14)) Facts₀.shapeCasts_S50000_S50000x1 := by
  after_results
  rfl

/-! ## Between the regions: gather at the sources, accumulate at the targets; the next bias as a row -/

theorem s1_v26 : after hostOps1 W (Proc.devRef .tc main_v26)
    = aggArr (W (Proc.devRef .tc main_v5)) (W (Proc.devRef .tc main_v6)) (W (Proc.devRef .tc main_v16)) := by
  after_results
  rfl
theorem s1_v27 : after hostOps1 W (Proc.devRef .tc main_v27)
    = shapeCast S1x128 (W (Proc.devRef .tc main_arg3)) Facts₀.shapeCasts_S128_S1x128 := by
  after_results
  rfl
theorem s2_v38 : after hostOps2 W (Proc.devRef .tc main_v38)
    = aggArr (W (Proc.devRef .tc main_v5)) (W (Proc.devRef .tc main_v6)) (W (Proc.devRef .tc main_v28)) := by
  after_results
  rfl
theorem s2_v39 : after hostOps2 W (Proc.devRef .tc main_v39)
    = shapeCast S1x128 (W (Proc.devRef .tc main_arg5)) Facts₀.shapeCasts_S128_S1x128 := by
  after_results
  rfl
theorem s3_v50 : after hostOps3 W (Proc.devRef .tc main_v50)
    = aggArr (W (Proc.devRef .tc main_v5)) (W (Proc.devRef .tc main_v6)) (W (Proc.devRef .tc main_v40)) := by
  after_results
  rfl
theorem s3_v51 : after hostOps3 W (Proc.devRef .tc main_v51)
    = shapeCast S1x128 (W (Proc.devRef .tc main_arg7)) Facts₀.shapeCasts_S128_S1x128 := by
  after_results
  rfl

/-- THE ACCUMULATED ROWS AT AN ENTRY: over the edges whose target number is `v`, the sum of row `src e` of `y`. -/
theorem aggArr_apply (s d : IVec S650000 32) (y : FVec Ideal S50000x128 .f32) (v : Fin 50000) (j : Fin 128) :
    aggArr s d y (ix2 v j)
      = Cert.Gcn.agg (fun k => (Cert.Graph.rawCol d (ix2 k (0 : Fin 1))).toInt)
          (fun k j => y (ix2 (Cert.Graph.rowOf (Cert.Graph.wrapCol s) k) j)) v j := by
  unfold aggArr Cert.Gcn.agg
  refine (Idealize.ShloMosaic.RowScatter.host_scatterAdd_row_apply (N := 50000) (R := 650000) (C := 128)
    Facts₀.scatter_S50000x128_S650000x1_S650000x128_1_0_0_1_wf _ _ _ v j).trans ?_
  refine congr (congrArg HAdd.hAdd Ideal.ofBits_zero_f32) (Finset.sum_congr rfl fun k _ => ?_)
  refine if_congr Iff.rfl ?_ rfl
  exact Idealize.ShloMosaic.RowGather.gather_row_apply (N := 50000) (R := 650000) (C := 128) (by decide)
    Facts₀.gather_S50000x128_S650000x1_S650000x128_1_0_n_n_0_1_1128_wf y _ k j

/-! ## What no later operation writes is read back unchanged -/

theorem s0_arg0 : after hostOps0 W (Proc.devRef .tc main_arg0) = W (Proc.devRef .tc main_arg0) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s0_arg1 : after hostOps0 W (Proc.devRef .tc main_arg1) = W (Proc.devRef .tc main_arg1) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s0_arg2 : after hostOps0 W (Proc.devRef .tc main_arg2) = W (Proc.devRef .tc main_arg2) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s0_arg3 : after hostOps0 W (Proc.devRef .tc main_arg3) = W (Proc.devRef .tc main_arg3) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s0_arg4 : after hostOps0 W (Proc.devRef .tc main_arg4) = W (Proc.devRef .tc main_arg4) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s0_arg5 : after hostOps0 W (Proc.devRef .tc main_arg5) = W (Proc.devRef .tc main_arg5) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s0_arg6 : after hostOps0 W (Proc.devRef .tc main_arg6) = W (Proc.devRef .tc main_arg6) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s0_arg7 : after hostOps0 W (Proc.devRef .tc main_arg7) = W (Proc.devRef .tc main_arg7) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s01_v5 : after hostOps0_1 W (Proc.devRef .tc main_v5) = W (Proc.devRef .tc main_v5) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s01_v6 : after hostOps0_1 W (Proc.devRef .tc main_v6) = W (Proc.devRef .tc main_v6) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s01_arg0 : after hostOps0_1 W (Proc.devRef .tc main_arg0) = W (Proc.devRef .tc main_arg0) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s01_arg1 : after hostOps0_1 W (Proc.devRef .tc main_arg1) = W (Proc.devRef .tc main_arg1) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s01_arg2 : after hostOps0_1 W (Proc.devRef .tc main_arg2) = W (Proc.devRef .tc main_arg2) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s01_arg3 : after hostOps0_1 W (Proc.devRef .tc main_arg3) = W (Proc.devRef .tc main_arg3) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s01_arg4 : after hostOps0_1 W (Proc.devRef .tc main_arg4) = W (Proc.devRef .tc main_arg4) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s01_arg5 : after hostOps0_1 W (Proc.devRef .tc main_arg5) = W (Proc.devRef .tc main_arg5) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s01_arg6 : after hostOps0_1 W (Proc.devRef .tc main_arg6) = W (Proc.devRef .tc main_arg6) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s01_arg7 : after hostOps0_1 W (Proc.devRef .tc main_arg7) = W (Proc.devRef .tc main_arg7) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s02_v5 : after hostOps0_2 W (Proc.devRef .tc main_v5) = W (Proc.devRef .tc main_v5) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s02_v6 : after hostOps0_2 W (Proc.devRef .tc main_v6) = W (Proc.devRef .tc main_v6) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s02_arg0 : after hostOps0_2 W (Proc.devRef .tc main_arg0) = W (Proc.devRef .tc main_arg0) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s02_arg1 : after hostOps0_2 W (Proc.devRef .tc main_arg1) = W (Proc.devRef .tc main_arg1) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s02_arg2 : after hostOps0_2 W (Proc.devRef .tc main_arg2) = W (Proc.devRef .tc main_arg2) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s02_arg3 : after hostOps0_2 W (Proc.devRef .tc main_arg3) = W (Proc.devRef .tc main_arg3) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s02_arg4 : after hostOps0_2 W (Proc.devRef .tc main_arg4) = W (Proc.devRef .tc main_arg4) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s02_arg5 : after hostOps0_2 W (Proc.devRef .tc main_arg5) = W (Proc.devRef .tc main_arg5) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s02_arg6 : after hostOps0_2 W (Proc.devRef .tc main_arg6) = W (Proc.devRef .tc main_arg6) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s02_arg7 : after hostOps0_2 W (Proc.devRef .tc main_arg7) = W (Proc.devRef .tc main_arg7) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s1_v5 : after hostOps1 W (Proc.devRef .tc main_v5) = W (Proc.devRef .tc main_v5) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s2_v5 : after hostOps2 W (Proc.devRef .tc main_v5) = W (Proc.devRef .tc main_v5) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s3_v5 : after hostOps3 W (Proc.devRef .tc main_v5) = W (Proc.devRef .tc main_v5) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s1_v6 : after hostOps1 W (Proc.devRef .tc main_v6) = W (Proc.devRef .tc main_v6) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s2_v6 : after hostOps2 W (Proc.devRef .tc main_v6) = W (Proc.devRef .tc main_v6) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s3_v6 : after hostOps3 W (Proc.devRef .tc main_v6) = W (Proc.devRef .tc main_v6) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s1_v15 : after hostOps1 W (Proc.devRef .tc main_v15) = W (Proc.devRef .tc main_v15) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s2_v15 : after hostOps2 W (Proc.devRef .tc main_v15) = W (Proc.devRef .tc main_v15) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s3_v15 : after hostOps3 W (Proc.devRef .tc main_v15) = W (Proc.devRef .tc main_v15) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s1_arg0 : after hostOps1 W (Proc.devRef .tc main_arg0) = W (Proc.devRef .tc main_arg0) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s2_arg0 : after hostOps2 W (Proc.devRef .tc main_arg0) = W (Proc.devRef .tc main_arg0) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s3_arg0 : after hostOps3 W (Proc.devRef .tc main_arg0) = W (Proc.devRef .tc main_arg0) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s1_arg1 : after hostOps1 W (Proc.devRef .tc main_arg1) = W (Proc.devRef .tc main_arg1) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s2_arg1 : after hostOps2 W (Proc.devRef .tc main_arg1) = W (Proc.devRef .tc main_arg1) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s3_arg1 : after hostOps3 W (Proc.devRef .tc main_arg1) = W (Proc.devRef .tc main_arg1) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s1_arg2 : after hostOps1 W (Proc.devRef .tc main_arg2) = W (Proc.devRef .tc main_arg2) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s2_arg2 : after hostOps2 W (Proc.devRef .tc main_arg2) = W (Proc.devRef .tc main_arg2) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s3_arg2 : after hostOps3 W (Proc.devRef .tc main_arg2) = W (Proc.devRef .tc main_arg2) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s1_arg3 : after hostOps1 W (Proc.devRef .tc main_arg3) = W (Proc.devRef .tc main_arg3) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s2_arg3 : after hostOps2 W (Proc.devRef .tc main_arg3) = W (Proc.devRef .tc main_arg3) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s3_arg3 : after hostOps3 W (Proc.devRef .tc main_arg3) = W (Proc.devRef .tc main_arg3) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s1_arg4 : after hostOps1 W (Proc.devRef .tc main_arg4) = W (Proc.devRef .tc main_arg4) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s2_arg4 : after hostOps2 W (Proc.devRef .tc main_arg4) = W (Proc.devRef .tc main_arg4) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s3_arg4 : after hostOps3 W (Proc.devRef .tc main_arg4) = W (Proc.devRef .tc main_arg4) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s1_arg5 : after hostOps1 W (Proc.devRef .tc main_arg5) = W (Proc.devRef .tc main_arg5) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s2_arg5 : after hostOps2 W (Proc.devRef .tc main_arg5) = W (Proc.devRef .tc main_arg5) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s3_arg5 : after hostOps3 W (Proc.devRef .tc main_arg5) = W (Proc.devRef .tc main_arg5) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s1_arg6 : after hostOps1 W (Proc.devRef .tc main_arg6) = W (Proc.devRef .tc main_arg6) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s2_arg6 : after hostOps2 W (Proc.devRef .tc main_arg6) = W (Proc.devRef .tc main_arg6) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s3_arg6 : after hostOps3 W (Proc.devRef .tc main_arg6) = W (Proc.devRef .tc main_arg6) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s1_arg7 : after hostOps1 W (Proc.devRef .tc main_arg7) = W (Proc.devRef .tc main_arg7) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s2_arg7 : after hostOps2 W (Proc.devRef .tc main_arg7) = W (Proc.devRef .tc main_arg7) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem s3_arg7 : after hostOps3 W (Proc.devRef .tc main_arg7) = W (Proc.devRef .tc main_arg7) := (by
    refine StableHlo.after_of_forall_not_mem _ _ (List.forall_iff_forall_mem.mp ?_)
    simp only [hostOps0, hostOps0_1, hostOps0_2, hostOps1, hostOps2, hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.KernelIdeal.Whole

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«182050_j75342316306432_2_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.RegionValues.lean ====
/-
  The four row-blocked regions of the program, each read as one function of the arrays it finds.

  Every region walks the 50000 rows in ten blocks of 5000. At block t it reads rows 5000·t … 5000·t + 4999 of its
  row-blocked operands (and the whole of its small operands: a 128 × 128 weight table, a 1 × 128 bias row), and
  writes the same rows of its result. Each entry of the result depends only on its own row of the operands, so
  the result is one function of the operands, index by index: at (v, j)

    region 0:  d v · Σ_k x (v, k) · W (k, j)
    regions 1, 2:  d v · Σ_k max (d v · a (v, k) + b k) 0 · W (k, j)
    region 3:  d v · a (v, j) + b j

  where d is the column of node weights, kept as a 50000 × 1 array.
-/
import proofs.«182050_j75342316306432_2_alg».proof.Proof.Gen.KernelIdeal.Frame
import proofs.«182050_j75342316306432_2_alg».proof.Proof.Rounds
import proofs.«182050_j75342316306432_2_alg».proof.Proof.LibRowsTimes
import proofs.«182050_j75342316306432_2_alg».proof.Proof.LibRowsCols
import proofs.«182050_j75342316306432_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValues

open Idealize.ShloMosaic Idealize.ShloMosaic.ValueIdx Cert.KernelIdeal Cert.KernelIdeal.Gen
open Idealize.ShloMosaic.TcCoe Idealize.SL.Sem
open Idealize.ShloMosaic.Pipeline (Dat)

/-! ## The arrays a region finds, as the arguments of the specification

An array's entry has the buffer's element type, which only unfolds to the extended reals; these readers give each
array the literal type the specification's functions take, so that arithmetic on their values elaborates. Each is
the array read at `ix2`, by definition. -/

/-- The rows of a 50000 × 128 array. -/
abbrev rows (X : S50000x128.Idx → EReal) : Fin 50000 → Fin 128 → EReal := fun v k => X (ix2 v k)
/-- The one column of a 50000 × 1 array. -/
abbrev column (X : S50000x1.Idx → EReal) : Fin 50000 → EReal := fun v => X (ix2 v (0 : Fin 1))
/-- A 128 × 128 table. -/
abbrev table (W : S128x128.Idx → EReal) : Fin 128 → Fin 128 → EReal := fun k j => W (ix2 k j)
/-- The one row of a 1 × 128 array. -/
abbrev row (b : S1x128.Idx → EReal) : Fin 128 → EReal := fun j => b (ix2 (0 : Fin 1) j)

/-- The zero offsets of a whole-buffer load or store, however spelt. -/
theorem hz : (![0, 0] : Fin 2 → Nat) = fun _ => 0 := funext fun a => by fin_cases a <;> rfl

/-! ## Region 3: scale the rows and add the bias -/

/-- What region 3 leaves at (v, j): the node's weight times the entry, plus the bias of column j. -/
def G3 (d : S50000x1.Idx → EReal) (a : S50000x128.Idx → EReal) (b : S1x128.Idx → EReal) : S50000x128.Idx → EReal :=
  fun i => d (ix2 (i 0 : Fin 50000) (0 : Fin 1)) * a i + b (ix2 (0 : Fin 1) (i 1 : Fin 128))

/-- The body's result at (p, q) of a block: the block's weight at row p times its entry, plus the bias at q. -/
theorem pay3_apply (x0 : Vec Ideal S5000x1 .f32) (x2 : Vec Ideal S5000x128 .f32) (x6 : Vec Ideal S1x128 .f32)
    (p : Fin 5000) (q : Fin 128) :
    k3_pay1 x0 x2 x6 (ix2 p q) = x0 (ix2 p (0 : Fin 1)) * x2 (ix2 p q) + x6 (ix2 (0 : Fin 1) q) := by
  unfold k3_pay1
  rw [shapeCast_self, shapeCast_self, shapeCast_self]
  rw [addf_apply, mulf_apply, ColumnLayout.broadcastTo_a1_ab_apply, broadcastTo_1b_ab_apply]

/-- Where block t of each window sits: the row-blocked windows at block row t, the bias at its only block. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- Block t of the features is rows 5000·t … 5000·t + 4999 of the array. -/
theorem iblk3_0_apply (c : Dev nD) (t : Fin cfg3.N) (p : Fin 5000) (q : Fin 128) (v : Fin 50000)
    (hv : v.val = t.val * 5000 + p.val) :
    (iblk3 V c 0 t : Vec Ideal S5000x128 .f32) (ix2 p q) = (V c main_v50 : S50000x128.Idx → EReal) (ix2 v q) := by
  unfold iblk3
  rw [View.read_apply]
  show V c main_v50 _ = V c main_v50 _
  congr 1
  funext a
  apply Fin.ext
  match a with
  | ⟨0, _⟩ => show win3_0.index t 0 * 5000 + 1 * p.val = v.val; rw [(idx3 t).1, hv]; omega
  | ⟨1, _⟩ => show win3_0.index t 1 * 128 + 1 * q.val = q.val; rw [(idx3 t).2.1]; omega

/-- Block t of the weight column is the same rows of the column. -/
theorem iblk3_1_apply (c : Dev nD) (t : Fin cfg3.N) (p : Fin 5000) (v : Fin 50000)
    (hv : v.val = t.val * 5000 + p.val) :
    (iblk3 V c 1 t : Vec Ideal S5000x1 .f32) (ix2 p (0 : Fin 1)) = (V c main_v15 : S50000x1.Idx → EReal) (ix2 v (0 : Fin 1)) := by
  unfold iblk3
  rw [View.read_apply]
  show V c main_v15 _ = V c main_v15 _
  congr 1
  funext a
  apply Fin.ext
  match a with
  | ⟨0, _⟩ => show win3_1.index t 0 * 5000 + 1 * p.val = v.val; rw [(idx3 t).2.2.1, hv]; omega
  | ⟨1, _⟩ => show win3_1.index t 1 * 1 + 1 * 0 = 0; rw [(idx3 t).2.2.2.1]

/-- The bias row is read whole at every point. -/
theorem iblk3_2_apply (c : Dev nD) (t : Fin cfg3.N) (q : Fin 128) :
    (iblk3 V c 2 t : Vec Ideal S1x128 .f32) (ix2 (0 : Fin 1) q) = (V c main_v51 : S1x128.Idx → EReal) (ix2 (0 : Fin 1) q) := by
  unfold iblk3
  rw [View.read_apply]
  show V c main_v51 _ = V c main_v51 _
  congr 1
  funext a
  apply Fin.ext
  match a with
  | ⟨0, _⟩ => show win3_2.index t 0 * 1 + 1 * 0 = 0; rw [(idx3 t).2.2.2.2.1]
  | ⟨1, _⟩ => show win3_2.index t 1 * 128 + 1 * q.val = q.val; rw [(idx3 t).2.2.2.2.2.1]; omega

/-- What point t writes back is rows 5000·t … 5000·t + 4999 of the one function of the arrays. -/
theorem flushed3_eq (c : Dev nD) (t : Fin cfg3.N) :
    (dat3 (F := Ideal) V c).flushed 3 t
      = ((cfg3.win 3).blk t).view.read (Elt Ideal) (G3 (V c main_v15) (V c main_v50) (V c main_v51)) := by
  show (cfg3.win 3).cut (grid3.coords t) ((dat3 V c).after 3 t) = _
  rw [after3_3]
  unfold out3_3
  rw [View.canon_unit_zero hz]
  simp only [View.ld_unit_zero (S := S5000x1) hz, View.ld_unit_zero (S := S5000x128) hz, View.ld_unit_zero (S := S1x128) hz]
  funext y
  have hy0 : (y 0).val < 5000 := (y 0).isLt
  have hy1 : (y 1).val < 128 := (y 1).isLt
  have ht : t.val < 10 := t.isLt
  have hy : win3_3.xinj (grid3.coords t) y = ix2 (⟨(y 0).val, hy0⟩ : Fin 5000) (⟨(y 1).val, hy1⟩ : Fin 128) := eq_ix2 _
  have he : ((cfg3.win 3).blk t).view.emb y
      = ix2 (⟨t.val * 5000 + (y 0).val, by omega⟩ : Fin 50000) (⟨(y 1).val, hy1⟩ : Fin 128) := by
    funext a
    apply Fin.ext
    match a with
    | ⟨0, _⟩ => show win3_3.index t 0 * 5000 + 1 * (y 0).val = t.val * 5000 + (y 0).val; rw [(idx3 t).2.2.2.2.2.2.1]; omega
    | ⟨1, _⟩ => show win3_3.index t 1 * 128 + 1 * (y 1).val = (y 1).val; rw [(idx3 t).2.2.2.2.2.2.2]; omega
  show k3_pay1 (iblk3 V c 1 t) (iblk3 V c 0 t) (iblk3 V c 2 t) (win3_3.xinj (grid3.coords t) y)
    = G3 (V c main_v15) (V c main_v50) (V c main_v51) (((cfg3.win 3).blk t).view.emb y)
  have e0 := iblk3_0_apply V c t ⟨(y 0).val, hy0⟩ ⟨(y 1).val, hy1⟩ ⟨t.val * 5000 + (y 0).val, by omega⟩ rfl
  have e1 := iblk3_1_apply V c t ⟨(y 0).val, hy0⟩ ⟨t.val * 5000 + (y 0).val, by omega⟩ rfl
  have e2 := iblk3_2_apply V c t ⟨(y 1).val, hy1⟩
  rw [hy, he, pay3_apply, e0, e1, e2]
  rfl

/-- An index of the array is in point t's block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v52).slice (win3_3.rect t)).set ↔ _
  rw [View.set_slice_whole, Rect.mem_set_unit]
  exact Iff.rfl

/-- Row r lies in the block of point r / 5000: the ten blocks fill the array. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have ht : (i 0).val / 5000 < 10 := by omega
  refine ⟨⟨(i 0).val / 5000, ht⟩, flush3_3 _, ?_⟩
  rw [mem_blk3]
  obtain ⟨-, -, -, -, -, -, e0, e1⟩ := idx3 ⟨(i 0).val / 5000, ht⟩
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e1]; omega

/-- REGION 3, READ: the result array at (v, j) is the node's weight times the entry it found, plus the bias. -/
theorem final3 (c : Dev nD) (v : Fin 50000) (j : Fin 128) :
    (dat3 (F := Ideal) V c).arrAt 3 cfg3.N (ix2 v j)
      = column (V c main_v15) v * rows (V c main_v50) v j + row (V c main_v51) j :=
  congrFun ((dat3 (F := Ideal) V c).arrAt_eq_of_cover 3 (G3 (V c main_v15) (V c main_v50) (V c main_v51))
    (fun t _ => flushed3_eq V c t) cover3) (ix2 v j)

/-! ## Region 0: the dense product of the features with the first table, its rows scaled -/

/-- The printed contraction record is "rows times columns": one contracted axis of extent 128, the left operand
    read at (row, k), the right at (k, column). -/
theorem dot_rowsCols : Cert.Dense.RowsCols (R := 5000) (K := 128) (N := 128) dot_S5000x128_S128x128_S5000x128_1_0_0_1_n_n where
  rank := rfl
  size := rfl
  l0 := fun j k => rfl
  l1 := fun j k => DotDims.lhsIdx_val_of_single _ rfl j k
  r0 := fun j k => DotDims.rhsIdx_val_of_single _ rfl j k
  r1 := fun j k => rfl

/-- What region 0 leaves at (v, j): the node's weight times row v of the features against column j of the table. -/
def G0 (d : S50000x1.Idx → EReal) (x : S50000x128.Idx → EReal) (W : S128x128.Idx → EReal) : S50000x128.Idx → EReal :=
  fun i => d (ix2 (i 0 : Fin 50000) (0 : Fin 1)) * ∑ k : Fin 128, x (ix2 (i 0 : Fin 50000) k) * W (ix2 k (i 1 : Fin 128))

/-- The body's result at (p, q) of a block: the block's weight at row p times row p against column q. A change of
    float format is the identity on the extended reals, so the casts to bf16 do not appear. -/
theorem pay0_apply (x0 : Vec Ideal S5000x128 .f32) (x1 : Vec Ideal S128x128 .f32) (x2 : Vec Ideal S5000x1 .f32)
    (p : Fin 5000) (q : Fin 128) :
    k0_pay1 x0 x1 x2 (ix2 p q) = x2 (ix2 p (0 : Fin 1)) * ∑ k : Fin 128, x0 (ix2 p k) * x1 (ix2 k q) := by
  unfold k0_pay1
  rw [shapeCast_self, mulf_apply, ColumnLayout.broadcastTo_a1_ab_apply]
  congr 1
  exact Cert.Dense.matmul_zero_apply dot_rowsCols none _ _ (ix2 p q)

/-- Window 0 of region 0 moves down the rows: block t is at block row t, block column 0. -/
theorem idx0_0 : ∀ t : Fin cfg0.N, win0_0.index t (0 : Fin 2) = t.val ∧ win0_0.index t (1 : Fin 2) = 0 :=
  (by decide +kernel : ∀ t : Fin grid0.N, _)
/-- Window 1 of region 0 stays at its one block. -/
theorem idx0_1 : ∀ t : Fin cfg0.N, win0_1.index t (0 : Fin 2) = 0 ∧ win0_1.index t (1 : Fin 2) = 0 :=
  (by decide +kernel : ∀ t : Fin grid0.N, _)
/-- Window 2 of region 0 moves down the rows: block t is at block row t, block column 0. -/
theorem idx0_2 : ∀ t : Fin cfg0.N, win0_2.index t (0 : Fin 2) = t.val ∧ win0_2.index t (1 : Fin 2) = 0 :=
  (by decide +kernel : ∀ t : Fin grid0.N, _)
/-- Window 3 of region 0 moves down the rows: block t is at block row t, block column 0. -/
theorem idx0_3 : ∀ t : Fin cfg0.N, win0_3.index t (0 : Fin 2) = t.val ∧ win0_3.index t (1 : Fin 2) = 0 :=
  (by decide +kernel : ∀ t : Fin grid0.N, _)

/-- Block t of window 0 is rows 5000·t … 5000·t + 4999 of its array. -/
theorem iblk0_0_apply (c : Dev nD) (t : Fin cfg0.N) (p : Fin 5000) (q : Fin 128) (v : Fin 50000)
    (hv : v.val = t.val * 5000 + p.val) :
    (iblk0 V c 0 t : Vec Ideal S5000x128 .f32) (ix2 p q) = (V c main_arg0 : S50000x128.Idx → EReal) (ix2 v q) := by
  unfold iblk0
  rw [View.read_apply]
  show V c main_arg0 _ = V c main_arg0 _
  congr 1
  funext a
  apply Fin.ext
  match a with
  | ⟨0, _⟩ => show win0_0.index t 0 * 5000 + 1 * p.val = v.val; rw [(idx0_0 t).1, hv]; omega
  | ⟨1, _⟩ => show win0_0.index t 1 * 128 + 1 * q.val = q.val; rw [(idx0_0 t).2]; omega

/-- Window 1 reads its whole table at every point. -/
theorem iblk0_1_apply (c : Dev nD) (t : Fin cfg0.N) (k : Fin 128) (q : Fin 128) :
    (iblk0 V c 1 t : Vec Ideal S128x128 .f32) (ix2 k q) = (V c main_arg2 : S128x128.Idx → EReal) (ix2 k q) := by
  unfold iblk0
  rw [View.read_apply]
  show V c main_arg2 _ = V c main_arg2 _
  congr 1
  funext a
  apply Fin.ext
  match a with
  | ⟨0, _⟩ => show win0_1.index t 0 * 128 + 1 * k.val = k.val; rw [(idx0_1 t).1]; omega
  | ⟨1, _⟩ => show win0_1.index t 1 * 128 + 1 * q.val = q.val; rw [(idx0_1 t).2]; omega

/-- Block t of window 2 is rows 5000·t … 5000·t + 4999 of the one column. -/
theorem iblk0_2_apply (c : Dev nD) (t : Fin cfg0.N) (p : Fin 5000) (v : Fin 50000)
    (hv : v.val = t.val * 5000 + p.val) :
    (iblk0 V c 2 t : Vec Ideal S5000x1 .f32) (ix2 p (0 : Fin 1)) = (V c main_v15 : S50000x1.Idx → EReal) (ix2 v (0 : Fin 1)) := by
  unfold iblk0
  rw [View.read_apply]
  show V c main_v15 _ = V c main_v15 _
  congr 1
  funext a
  apply Fin.ext
  match a with
  | ⟨0, _⟩ => show win0_2.index t 0 * 5000 + 1 * p.val = v.val; rw [(idx0_2 t).1, hv]; omega
  | ⟨1, _⟩ => show win0_2.index t 1 * 1 + 1 * 0 = 0; rw [(idx0_2 t).2]

/-- What point t writes back is rows 5000·t … 5000·t + 4999 of the one function of the arrays. -/
theorem flushed0_eq (c : Dev nD) (t : Fin cfg0.N) :
    (dat0 (F := Ideal) V c).flushed 3 t
      = ((cfg0.win 3).blk t).view.read (Elt Ideal) (G0 (V c main_v15) (V c main_arg0) (V c main_arg2)) := by
  show (cfg0.win 3).cut (grid0.coords t) ((dat0 V c).after 3 t) = _
  rw [after0_3]
  unfold out0_3
  rw [View.canon_unit_zero hz]
  simp only [View.ld_unit_zero (S := S5000x1) hz, View.ld_unit_zero (S := S5000x128) hz, View.ld_unit_zero (S := S128x128) hz]
  funext y
  have hy0 : (y 0).val < 5000 := (y 0).isLt
  have hy1 : (y 1).val < 128 := (y 1).isLt
  have ht : t.val < 10 := t.isLt
  have hy : win0_3.xinj (grid0.coords t) y = ix2 (⟨(y 0).val, hy0⟩ : Fin 5000) (⟨(y 1).val, hy1⟩ : Fin 128) := eq_ix2 _
  have he : ((cfg0.win 3).blk t).view.emb y
      = ix2 (⟨t.val * 5000 + (y 0).val, by omega⟩ : Fin 50000) (⟨(y 1).val, hy1⟩ : Fin 128) := by
    funext a
    apply Fin.ext
    match a with
    | ⟨0, _⟩ => show win0_3.index t 0 * 5000 + 1 * (y 0).val = t.val * 5000 + (y 0).val; rw [(idx0_3 t).1]; omega
    | ⟨1, _⟩ => show win0_3.index t 1 * 128 + 1 * (y 1).val = (y 1).val; rw [(idx0_3 t).2]; omega
  show k0_pay1 (iblk0 V c 0 t) (iblk0 V c 1 t) (iblk0 V c 2 t) (win0_3.xinj (grid0.coords t) y)
    = G0 (V c main_v15) (V c main_arg0) (V c main_arg2) (((cfg0.win 3).blk t).view.emb y)
  have e2 := iblk0_2_apply V c t ⟨(y 0).val, hy0⟩ ⟨t.val * 5000 + (y 0).val, by omega⟩ rfl
  rw [hy, he, pay0_apply, e2]
  show _ * _ = _ * _
  congr 1
  refine Finset.sum_congr rfl fun k _ => ?_
  rw [iblk0_0_apply V c t ⟨(y 0).val, hy0⟩ k ⟨t.val * 5000 + (y 0).val, by omega⟩ rfl,
    iblk0_1_apply V c t k ⟨(y 1).val, hy1⟩]

/-- An index of the array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Row r lies in the block of point r / 5000: the ten blocks fill the array. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 5000 < 10 := by omega
  refine ⟨⟨(i 0).val / 5000, ht⟩, flush0_3 _, ?_⟩
  rw [mem_blk0]
  obtain ⟨e0, e1⟩ := idx0_3 ⟨(i 0).val / 5000, ht⟩
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]; omega

/-- REGION 0, READ: the result array is the dense product of the features with the table, each row scaled by its
    node's weight. -/
theorem final0 (c : Dev nD) (v : Fin 50000) (j : Fin 128) :
    (dat0 (F := Ideal) V c).arrAt 3 cfg0.N (ix2 v j)
      = Cert.Gcn.scaled (column (V c main_v15)) (Cert.Gcn.mm (rows (V c main_arg0)) (table (V c main_arg2))) v j :=
  congrFun ((dat0 (F := Ideal) V c).arrAt_eq_of_cover 3 (G0 (V c main_v15) (V c main_arg0) (V c main_arg2))
    (fun t _ => flushed0_eq V c t) cover0) (ix2 v j)

/-! ## Region 1: the previous round's sums scaled, biased and rectified, then the dense product with the second table, its rows scaled -/

/-- What region 1 leaves at (v, j): the node's weight times the rectified row v against column j of the table, the
    row being the weight times the entry it found plus the bias. -/
def G1 (d : S50000x1.Idx → EReal) (a : S50000x128.Idx → EReal) (b : S1x128.Idx → EReal) (W : S128x128.Idx → EReal) :
    S50000x128.Idx → EReal :=
  fun i => d (ix2 (i 0 : Fin 50000) (0 : Fin 1))
    * ∑ k : Fin 128, max (d (ix2 (i 0 : Fin 50000) (0 : Fin 1)) * a (ix2 (i 0 : Fin 50000) k) + b (ix2 (0 : Fin 1) k)) 0
        * W (ix2 k (i 1 : Fin 128))

/-- The body's result at (p, q) of a block. The zero of the rectifier is the f32 word 0, which is the real zero; a
    change of float format is the identity on the extended reals. -/
theorem pay1_apply (x0 : Vec Ideal S5000x1 .f32) (x2 : Vec Ideal S5000x128 .f32) (x6 : Vec Ideal S1x128 .f32)
    (x13 : Vec Ideal S128x128 .f32) (p : Fin 5000) (q : Fin 128) :
    k1_pay1 x0 x2 x6 x13 (ix2 p q)
      = x0 (ix2 p (0 : Fin 1))
        * ∑ k : Fin 128, max (x0 (ix2 p (0 : Fin 1)) * x2 (ix2 p k) + x6 (ix2 (0 : Fin 1) k)) 0 * x13 (ix2 k q) := by
  unfold k1_pay1
  rw [shapeCast_self, shapeCast_self, shapeCast_self, mulf_apply, ColumnLayout.broadcastTo_a1_ab_apply]
  congr 1
  refine (Cert.Dense.matmul_zero_apply dot_rowsCols none _ _ (ix2 p q)).trans ?_
  show ∑ k : Fin 128, _ = _
  refine Finset.sum_congr rfl fun k _ => ?_
  show max (broadcastTo S5000x128 x0 broadcasts_S5000x1_S5000x128 (ix2 p k) * x2 (ix2 p k)
      + broadcastTo S5000x128 x6 broadcasts_S1x128_S5000x128 (ix2 p k)) (Ideal.ofBits .f32 0x00000000#32) * x13 (ix2 k q) = _
  rw [ColumnLayout.broadcastTo_a1_ab_apply, broadcastTo_1b_ab_apply, Ideal.ofBits_zero_f32]

/-- Window 0 of region 1 moves down the rows: block t is at block row t, block column 0. -/
theorem idx1_0 : ∀ t : Fin cfg1.N, win1_0.index t (0 : Fin 2) = t.val ∧ win1_0.index t (1 : Fin 2) = 0 :=
  (by decide +kernel : ∀ t : Fin grid1.N, _)
/-- Window 1 of region 1 moves down the rows: block t is at block row t, block column 0. -/
theorem idx1_1 : ∀ t : Fin cfg1.N, win1_1.index t (0 : Fin 2) = t.val ∧ win1_1.index t (1 : Fin 2) = 0 :=
  (by decide +kernel : ∀ t : Fin grid1.N, _)
/-- Window 2 of region 1 stays at its one block. -/
theorem idx1_2 : ∀ t : Fin cfg1.N, win1_2.index t (0 : Fin 2) = 0 ∧ win1_2.index t (1 : Fin 2) = 0 :=
  (by decide +kernel : ∀ t : Fin grid1.N, _)
/-- Window 3 of region 1 stays at its one block. -/
theorem idx1_3 : ∀ t : Fin cfg1.N, win1_3.index t (0 : Fin 2) = 0 ∧ win1_3.index t (1 : Fin 2) = 0 :=
  (by decide +kernel : ∀ t : Fin grid1.N, _)
/-- Window 4 of region 1 moves down the rows: block t is at block row t, block column 0. -/
theorem idx1_4 : ∀ t : Fin cfg1.N, win1_4.index t (0 : Fin 2) = t.val ∧ win1_4.index t (1 : Fin 2) = 0 :=
  (by decide +kernel : ∀ t : Fin grid1.N, _)

/-- Block t of window 0 is rows 5000·t … 5000·t + 4999 of its array. -/
theorem iblk1_0_apply (c : Dev nD) (t : Fin cfg1.N) (p : Fin 5000) (q : Fin 128) (v : Fin 50000)
    (hv : v.val = t.val * 5000 + p.val) :
    (iblk1 V c 0 t : Vec Ideal S5000x128 .f32) (ix2 p q) = (V c main_v26 : S50000x128.Idx → EReal) (ix2 v q) := by
  unfold iblk1
  rw [View.read_apply]
  show V c main_v26 _ = V c main_v26 _
  congr 1
  funext a
  apply Fin.ext
  match a with
  | ⟨0, _⟩ => show win1_0.index t 0 * 5000 + 1 * p.val = v.val; rw [(idx1_0 t).1, hv]; omega
  | ⟨1, _⟩ => show win1_0.index t 1 * 128 + 1 * q.val = q.val; rw [(idx1_0 t).2]; omega

/-- Block t of window 1 is rows 5000·t … 5000·t + 4999 of the one column. -/
theorem iblk1_1_apply (c : Dev nD) (t : Fin cfg1.N) (p : Fin 5000) (v : Fin 50000)
    (hv : v.val = t.val * 5000 + p.val) :
    (iblk1 V c 1 t : Vec Ideal S5000x1 .f32) (ix2 p (0 : Fin 1)) = (V c main_v15 : S50000x1.Idx → EReal) (ix2 v (0 : Fin 1)) := by
  unfold iblk1
  rw [View.read_apply]
  show V c main_v15 _ = V c main_v15 _
  congr 1
  funext a
  apply Fin.ext
  match a with
  | ⟨0, _⟩ => show win1_1.index t 0 * 5000 + 1 * p.val = v.val; rw [(idx1_1 t).1, hv]; omega
  | ⟨1, _⟩ => show win1_1.index t 1 * 1 + 1 * 0 = 0; rw [(idx1_1 t).2]

/-- Window 2 reads its whole row at every point. -/
theorem iblk1_2_apply (c : Dev nD) (t : Fin cfg1.N) (q : Fin 128) :
    (iblk1 V c 2 t : Vec Ideal S1x128 .f32) (ix2 (0 : Fin 1) q) = (V c main_v27 : S1x128.Idx → EReal) (ix2 (0 : Fin 1) q) := by
  unfold iblk1
  rw [View.read_apply]
  show V c main_v27 _ = V c main_v27 _
  congr 1
  funext a
  apply Fin.ext
  match a with
  | ⟨0, _⟩ => show win1_2.index t 0 * 1 + 1 * 0 = 0; rw [(idx1_2 t).1]
  | ⟨1, _⟩ => show win1_2.index t 1 * 128 + 1 * q.val = q.val; rw [(idx1_2 t).2]; omega

/-- Window 3 reads its whole table at every point. -/
theorem iblk1_3_apply (c : Dev nD) (t : Fin cfg1.N) (k : Fin 128) (q : Fin 128) :
    (iblk1 V c 3 t : Vec Ideal S128x128 .f32) (ix2 k q) = (V c main_arg4 : S128x128.Idx → EReal) (ix2 k q) := by
  unfold iblk1
  rw [View.read_apply]
  show V c main_arg4 _ = V c main_arg4 _
  congr 1
  funext a
  apply Fin.ext
  match a with
  | ⟨0, _⟩ => show win1_3.index t 0 * 128 + 1 * k.val = k.val; rw [(idx1_3 t).1]; omega
  | ⟨1, _⟩ => show win1_3.index t 1 * 128 + 1 * q.val = q.val; rw [(idx1_3 t).2]; omega

/-- What point t writes back is rows 5000·t … 5000·t + 4999 of the one function of the arrays. -/
theorem flushed1_eq (c : Dev nD) (t : Fin cfg1.N) :
    (dat1 (F := Ideal) V c).flushed 4 t
      = ((cfg1.win 4).blk t).view.read (Elt Ideal) (G1 (V c main_v15) (V c main_v26) (V c main_v27) (V c main_arg4)) := by
  show (cfg1.win 4).cut (grid1.coords t) ((dat1 V c).after 4 t) = _
  rw [after1_4]
  unfold out1_4
  rw [View.canon_unit_zero hz]
  simp only [View.ld_unit_zero (S := S5000x1) hz, View.ld_unit_zero (S := S5000x128) hz, View.ld_unit_zero (S := S1x128) hz,
    View.ld_unit_zero (S := S128x128) hz]
  funext y
  have hy0 : (y 0).val < 5000 := (y 0).isLt
  have hy1 : (y 1).val < 128 := (y 1).isLt
  have ht : t.val < 10 := t.isLt
  have hy : win1_4.xinj (grid1.coords t) y = ix2 (⟨(y 0).val, hy0⟩ : Fin 5000) (⟨(y 1).val, hy1⟩ : Fin 128) := eq_ix2 _
  have he : ((cfg1.win 4).blk t).view.emb y
      = ix2 (⟨t.val * 5000 + (y 0).val, by omega⟩ : Fin 50000) (⟨(y 1).val, hy1⟩ : Fin 128) := by
    funext a
    apply Fin.ext
    match a with
    | ⟨0, _⟩ => show win1_4.index t 0 * 5000 + 1 * (y 0).val = t.val * 5000 + (y 0).val; rw [(idx1_4 t).1]; omega
    | ⟨1, _⟩ => show win1_4.index t 1 * 128 + 1 * (y 1).val = (y 1).val; rw [(idx1_4 t).2]; omega
  show k1_pay1 (iblk1 V c 1 t) (iblk1 V c 0 t) (iblk1 V c 2 t) (iblk1 V c 3 t) (win1_4.xinj (grid1.coords t) y)
    = G1 (V c main_v15) (V c main_v26) (V c main_v27) (V c main_arg4) (((cfg1.win 4).blk t).view.emb y)
  have e1 := iblk1_1_apply V c t ⟨(y 0).val, hy0⟩ ⟨t.val * 5000 + (y 0).val, by omega⟩ rfl
  rw [hy, he, pay1_apply, e1]
  show _ * _ = _ * _
  congr 1
  refine Finset.sum_congr rfl fun k _ => ?_
  rw [iblk1_0_apply V c t ⟨(y 0).val, hy0⟩ k ⟨t.val * 5000 + (y 0).val, by omega⟩ rfl,
    iblk1_2_apply V c t k, iblk1_3_apply V c t k ⟨(y 1).val, hy1⟩]

/-- An index of the array is in point t's block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v28).slice (win1_4.rect t)).set ↔ _
  rw [View.set_slice_whole, Rect.mem_set_unit]
  exact Iff.rfl

/-- Row r lies in the block of point r / 5000: the ten blocks fill the array. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have ht : (i 0).val / 5000 < 10 := by omega
  refine ⟨⟨(i 0).val / 5000, ht⟩, flush1_4 _, ?_⟩
  rw [mem_blk1]
  obtain ⟨e0, e1⟩ := idx1_4 ⟨(i 0).val / 5000, ht⟩
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e1]; omega

/-- REGION 1, READ: the result array is the dense product with the table of the rectified rows — each the node's weight
    times the row it found, plus the bias —, each row of the product scaled by its node's weight. -/
theorem final1 (c : Dev nD) (v : Fin 50000) (j : Fin 128) :
    (dat1 (F := Ideal) V c).arrAt 4 cfg1.N (ix2 v j)
      = Cert.Gcn.scaled (column (V c main_v15)) (Cert.Gcn.mm (Cert.Gcn.relu (fun v k =>
          column (V c main_v15) v * rows (V c main_v26) v k + row (V c main_v27) k)) (table (V c main_arg4))) v j :=
  congrFun ((dat1 (F := Ideal) V c).arrAt_eq_of_cover 4 (G1 (V c main_v15) (V c main_v26) (V c main_v27) (V c main_arg4))
    (fun t _ => flushed1_eq V c t) cover1) (ix2 v j)

/-! ## Region 2: the previous round's sums scaled, biased and rectified, then the dense product with the third table, its rows scaled -/

/-- What region 2 leaves at (v, j): the node's weight times the rectified row v against column j of the table, the
    row being the weight times the entry it found plus the bias. -/
def G2 (d : S50000x1.Idx → EReal) (a : S50000x128.Idx → EReal) (b : S1x128.Idx → EReal) (W : S128x128.Idx → EReal) :
    S50000x128.Idx → EReal :=
  fun i => d (ix2 (i 0 : Fin 50000) (0 : Fin 1))
    * ∑ k : Fin 128, max (d (ix2 (i 0 : Fin 50000) (0 : Fin 1)) * a (ix2 (i 0 : Fin 50000) k) + b (ix2 (0 : Fin 1) k)) 0
        * W (ix2 k (i 1 : Fin 128))

/-- The body's result at (p, q) of a block. The zero of the rectifier is the f32 word 0, which is the real zero; a
    change of float format is the identity on the extended reals. -/
theorem pay2_apply (x0 : Vec Ideal S5000x1 .f32) (x2 : Vec Ideal S5000x128 .f32) (x6 : Vec Ideal S1x128 .f32)
    (x13 : Vec Ideal S128x128 .f32) (p : Fin 5000) (q : Fin 128) :
    k2_pay1 x0 x2 x6 x13 (ix2 p q)
      = x0 (ix2 p (0 : Fin 1))
        * ∑ k : Fin 128, max (x0 (ix2 p (0 : Fin 1)) * x2 (ix2 p k) + x6 (ix2 (0 : Fin 1) k)) 0 * x13 (ix2 k q) := by
  unfold k2_pay1
  rw [shapeCast_self, shapeCast_self, shapeCast_self, mulf_apply, ColumnLayout.broadcastTo_a1_ab_apply]
  congr 1
  refine (Cert.Dense.matmul_zero_apply dot_rowsCols none _ _ (ix2 p q)).trans ?_
  show ∑ k : Fin 128, _ = _
  refine Finset.sum_congr rfl fun k _ => ?_
  show max (broadcastTo S5000x128 x0 broadcasts_S5000x1_S5000x128 (ix2 p k) * x2 (ix2 p k)
      + broadcastTo S5000x128 x6 broadcasts_S1x128_S5000x128 (ix2 p k)) (Ideal.ofBits .f32 0x00000000#32) * x13 (ix2 k q) = _
  rw [ColumnLayout.broadcastTo_a1_ab_apply, broadcastTo_1b_ab_apply, Ideal.ofBits_zero_f32]

/-- Window 0 of region 2 moves down the rows: block t is at block row t, block column 0. -/
theorem idx2_0 : ∀ t : Fin cfg2.N, win2_0.index t (0 : Fin 2) = t.val ∧ win2_0.index t (1 : Fin 2) = 0 :=
  (by decide +kernel : ∀ t : Fin grid2.N, _)
/-- Window 1 of region 2 moves down the rows: block t is at block row t, block column 0. -/
theorem idx2_1 : ∀ t : Fin cfg2.N, win2_1.index t (0 : Fin 2) = t.val ∧ win2_1.index t (1 : Fin 2) = 0 :=
  (by decide +kernel : ∀ t : Fin grid2.N, _)
/-- Window 2 of region 2 stays at its one block. -/
theorem idx2_2 : ∀ t : Fin cfg2.N, win2_2.index t (0 : Fin 2) = 0 ∧ win2_2.index t (1 : Fin 2) = 0 :=
  (by decide +kernel : ∀ t : Fin grid2.N, _)
/-- Window 3 of region 2 stays at its one block. -/
theorem idx2_3 : ∀ t : Fin cfg2.N, win2_3.index t (0 : Fin 2) = 0 ∧ win2_3.index t (1 : Fin 2) = 0 :=
  (by decide +kernel : ∀ t : Fin grid2.N, _)
/-- Window 4 of region 2 moves down the rows: block t is at block row t, block column 0. -/
theorem idx2_4 : ∀ t : Fin cfg2.N, win2_4.index t (0 : Fin 2) = t.val ∧ win2_4.index t (1 : Fin 2) = 0 :=
  (by decide +kernel : ∀ t : Fin grid2.N, _)

/-- Block t of window 0 is rows 5000·t … 5000·t + 4999 of its array. -/
theorem iblk2_0_apply (c : Dev nD) (t : Fin cfg2.N) (p : Fin 5000) (q : Fin 128) (v : Fin 50000)
    (hv : v.val = t.val * 5000 + p.val) :
    (iblk2 V c 0 t : Vec Ideal S5000x128 .f32) (ix2 p q) = (V c main_v38 : S50000x128.Idx → EReal) (ix2 v q) := by
  unfold iblk2
  rw [View.read_apply]
  show V c main_v38 _ = V c main_v38 _
  congr 1
  funext a
  apply Fin.ext
  match a with
  | ⟨0, _⟩ => show win2_0.index t 0 * 5000 + 1 * p.val = v.val; rw [(idx2_0 t).1, hv]; omega
  | ⟨1, _⟩ => show win2_0.index t 1 * 128 + 1 * q.val = q.val; rw [(idx2_0 t).2]; omega

/-- Block t of window 1 is rows 5000·t … 5000·t + 4999 of the one column. -/
theorem iblk2_1_apply (c : Dev nD) (t : Fin cfg2.N) (p : Fin 5000) (v : Fin 50000)
    (hv : v.val = t.val * 5000 + p.val) :
    (iblk2 V c 1 t : Vec Ideal S5000x1 .f32) (ix2 p (0 : Fin 1)) = (V c main_v15 : S50000x1.Idx → EReal) (ix2 v (0 : Fin 1)) := by
  unfold iblk2
  rw [View.read_apply]
  show V c main_v15 _ = V c main_v15 _
  congr 1
  funext a
  apply Fin.ext
  match a with
  | ⟨0, _⟩ => show win2_1.index t 0 * 5000 + 1 * p.val = v.val; rw [(idx2_1 t).1, hv]; omega
  | ⟨1, _⟩ => show win2_1.index t 1 * 1 + 1 * 0 = 0; rw [(idx2_1 t).2]

/-- Window 2 reads its whole row at every point. -/
theorem iblk2_2_apply (c : Dev nD) (t : Fin cfg2.N) (q : Fin 128) :
    (iblk2 V c 2 t : Vec Ideal S1x128 .f32) (ix2 (0 : Fin 1) q) = (V c main_v39 : S1x128.Idx → EReal) (ix2 (0 : Fin 1) q) := by
  unfold iblk2
  rw [View.read_apply]
  show V c main_v39 _ = V c main_v39 _
  congr 1
  funext a
  apply Fin.ext
  match a with
  | ⟨0, _⟩ => show win2_2.index t 0 * 1 + 1 * 0 = 0; rw [(idx2_2 t).1]
  | ⟨1, _⟩ => show win2_2.index t 1 * 128 + 1 * q.val = q.val; rw [(idx2_2 t).2]; omega

/-- Window 3 reads its whole table at every point. -/
theorem iblk2_3_apply (c : Dev nD) (t : Fin cfg2.N) (k : Fin 128) (q : Fin 128) :
    (iblk2 V c 3 t : Vec Ideal S128x128 .f32) (ix2 k q) = (V c main_arg6 : S128x128.Idx → EReal) (ix2 k q) := by
  unfold iblk2
  rw [View.read_apply]
  show V c main_arg6 _ = V c main_arg6 _
  congr 1
  funext a
  apply Fin.ext
  match a with
  | ⟨0, _⟩ => show win2_3.index t 0 * 128 + 1 * k.val = k.val; rw [(idx2_3 t).1]; omega
  | ⟨1, _⟩ => show win2_3.index t 1 * 128 + 1 * q.val = q.val; rw [(idx2_3 t).2]; omega

/-- What point t writes back is rows 5000·t … 5000·t + 4999 of the one function of the arrays. -/
theorem flushed2_eq (c : Dev nD) (t : Fin cfg2.N) :
    (dat2 (F := Ideal) V c).flushed 4 t
      = ((cfg2.win 4).blk t).view.read (Elt Ideal) (G2 (V c main_v15) (V c main_v38) (V c main_v39) (V c main_arg6)) := by
  show (cfg2.win 4).cut (grid2.coords t) ((dat2 V c).after 4 t) = _
  rw [after2_4]
  unfold out2_4
  rw [View.canon_unit_zero hz]
  simp only [View.ld_unit_zero (S := S5000x1) hz, View.ld_unit_zero (S := S5000x128) hz, View.ld_unit_zero (S := S1x128) hz,
    View.ld_unit_zero (S := S128x128) hz]
  funext y
  have hy0 : (y 0).val < 5000 := (y 0).isLt
  have hy1 : (y 1).val < 128 := (y 1).isLt
  have ht : t.val < 10 := t.isLt
  have hy : win2_4.xinj (grid2.coords t) y = ix2 (⟨(y 0).val, hy0⟩ : Fin 5000) (⟨(y 1).val, hy1⟩ : Fin 128) := eq_ix2 _
  have he : ((cfg2.win 4).blk t).view.emb y
      = ix2 (⟨t.val * 5000 + (y 0).val, by omega⟩ : Fin 50000) (⟨(y 1).val, hy1⟩ : Fin 128) := by
    funext a
    apply Fin.ext
    match a with
    | ⟨0, _⟩ => show win2_4.index t 0 * 5000 + 1 * (y 0).val = t.val * 5000 + (y 0).val; rw [(idx2_4 t).1]; omega
    | ⟨1, _⟩ => show win2_4.index t 1 * 128 + 1 * (y 1).val = (y 1).val; rw [(idx2_4 t).2]; omega
  show k2_pay1 (iblk2 V c 1 t) (iblk2 V c 0 t) (iblk2 V c 2 t) (iblk2 V c 3 t) (win2_4.xinj (grid2.coords t) y)
    = G2 (V c main_v15) (V c main_v38) (V c main_v39) (V c main_arg6) (((cfg2.win 4).blk t).view.emb y)
  have e1 := iblk2_1_apply V c t ⟨(y 0).val, hy0⟩ ⟨t.val * 5000 + (y 0).val, by omega⟩ rfl
  rw [hy, he, pay2_apply, e1]
  show _ * _ = _ * _
  congr 1
  refine Finset.sum_congr rfl fun k _ => ?_
  rw [iblk2_0_apply V c t ⟨(y 0).val, hy0⟩ k ⟨t.val * 5000 + (y 0).val, by omega⟩ rfl,
    iblk2_2_apply V c t k, iblk2_3_apply V c t k ⟨(y 1).val, hy1⟩]

/-- An index of the array is in point t's block iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v40).slice (win2_4.rect t)).set ↔ _
  rw [View.set_slice_whole, Rect.mem_set_unit]
  exact Iff.rfl

/-- Row r lies in the block of point r / 5000: the ten blocks fill the array. -/
theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have ht : (i 0).val / 5000 < 10 := by omega
  refine ⟨⟨(i 0).val / 5000, ht⟩, flush2_4 _, ?_⟩
  rw [mem_blk2]
  obtain ⟨e0, e1⟩ := idx2_4 ⟨(i 0).val / 5000, ht⟩
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, ht⟩ (1 : Fin 2) * 128 ≤ (i 1).val
      ∧ (i 1).val < win2_4.index ⟨(i 0).val / 5000, ht⟩ (1 : Fin 2) * 128 + 128
    rw [e1]; omega

/-- REGION 2, READ: the result array is the dense product with the table of the rectified rows — each the node's weight
    times the row it found, plus the bias —, each row of the product scaled by its node's weight. -/
theorem final2 (c : Dev nD) (v : Fin 50000) (j : Fin 128) :
    (dat2 (F := Ideal) V c).arrAt 4 cfg2.N (ix2 v j)
      = Cert.Gcn.scaled (column (V c main_v15)) (Cert.Gcn.mm (Cert.Gcn.relu (fun v k =>
          column (V c main_v15) v * rows (V c main_v38) v k + row (V c main_v39) k)) (table (V c main_arg6))) v j :=
  congrFun ((dat2 (F := Ideal) V c).arrAt_eq_of_cover 4 (G2 (V c main_v15) (V c main_v38) (V c main_v39) (V c main_arg6))
    (fun t _ => flushed2_eq V c t) cover2) (ix2 v j)

end Cert.KernelIdeal.RegionValues

end
-- ==== Proof.KernelValue.lean ====
/-
  The idealized kernel's result, entry by entry.

  The run's last boundary holds the result buffer at what the fourth region's write-backs leave. Walking the ten
  segments back to the launch: the fourth region adds the bias to the accumulated rows scaled by the target's weight;
  each host stretch gathers the previous region's rows at the edges' sources and accumulates them at the edges'
  targets; the second and third regions scale, add the bias, rectify, multiply by the next weight matrix and scale
  again; the first region scales the rows of `x · W1`. The source and target numbers, the weight column and the
  arguments are written by no later segment, so every segment reads them as the first stretch left them. Composed,
  the result is `Cert.Gcn.nodewise`: three rounds with the node weights applied around each dense product.
-/
import proofs.«182050_j75342316306432_2_alg».proof.Proof.KernelHost
import proofs.«182050_j75342316306432_2_alg».proof.Proof.RegionValues
import proofs.«182050_j75342316306432_2_alg».proof.Proof.LibColumnLayout
import Idealize.ShloMosaic.Lib.ValueLayout

set_option maxRecDepth 16384

noncomputable section

namespace Cert.KernelIdeal.Whole

open Idealize.ShloMosaic Idealize.ShloMosaic.TcCoe Idealize.ShloMosaic.ValueIdx Idealize.ShloMosaic.StableHlo Idealize.SL.Sem
open Cert.KernelIdeal Cert.KernelIdeal.Gen Cert.KernelIdeal.RegionValues Cert.Gcn

variable (m : (ℓ : Loc nD τ sig) → Buf (Elt Ideal) ℓ) (ρ : Dev nD → PrngReg) (c : Dev nD)

/-- The table of edge ends the program is launched with. -/
abbrev ends : IVec S2x600000 32 := m ((c : Thread nD τ).loc main_arg1)
/-- The node weights, the node each edge reads, each edge's target number. -/
abbrev dinvF : Fin 50000 → EReal := Cert.Graph.dinvOf (ends m c)
abbrev srcF : Fin 650000 → Fin 50000 := Cert.Graph.srcOf (ends m c)
abbrev dstF : Fin 650000 → Int := Cert.Graph.dstOf (ends m c)
/-- The features, the three weight matrices and the three biases, read by row and column. -/
abbrev xF : Fin 50000 → Fin 128 → EReal := rows (m ((c : Thread nD τ).loc main_arg0))
abbrev w1F : Fin 128 → Fin 128 → EReal := table (m ((c : Thread nD τ).loc main_arg2))
abbrev w2F : Fin 128 → Fin 128 → EReal := table (m ((c : Thread nD τ).loc main_arg4))
abbrev w3F : Fin 128 → Fin 128 → EReal := table (m ((c : Thread nD τ).loc main_arg6))
abbrev b1F : Fin 128 → EReal := fun j => (m ((c : Thread nD τ).loc main_arg3) : S128.Idx → EReal) (ix1 j)
abbrev b2F : Fin 128 → EReal := fun j => (m ((c : Thread nD τ).loc main_arg5) : S128.Idx → EReal) (ix1 j)
abbrev b3F : Fin 128 → EReal := fun j => (m ((c : Thread nD τ).loc main_arg7) : S128.Idx → EReal) (ix1 j)
/-- The scaled rows entering each round. -/
abbrev y1 : Fin 50000 → Fin 128 → EReal := scaled (dinvF m c) (mm (xF m c) (w1F m c))
abbrev y2 : Fin 50000 → Fin 128 → EReal :=
  scaled (dinvF m c) (mm (relu (byNodes (dinvF m c) (srcF m c) (dstF m c) (b1F m c) (y1 m c))) (w2F m c))
abbrev y3 : Fin 50000 → Fin 128 → EReal :=
  scaled (dinvF m c) (mm (relu (byNodes (dinvF m c) (srcF m c) (dstF m c) (b2F m c) (y2 m c))) (w3F m c))

/-! ## What every segment boundary holds of the values later segments read -/

theorem w3_v5 : W3 m ρ c (Proc.devRef .tc main_v5) = Cert.Graph.srcArr (ends m c) := by
  show after hostOps0_2 (after hostOps0_1 (after hostOps0 (W0 m ρ c))) (Proc.devRef .tc main_v5) = _
  rw [s02_v5, s01_v5, s0_v5]
theorem w3_v6 : W3 m ρ c (Proc.devRef .tc main_v6) = Cert.Graph.dstArr (ends m c) := by
  show after hostOps0_2 (after hostOps0_1 (after hostOps0 (W0 m ρ c))) (Proc.devRef .tc main_v6) = _
  rw [s02_v6, s01_v6, s0_v6]
theorem w3_arg0 : W3 m ρ c (Proc.devRef .tc main_arg0) = m ((c : Thread nD τ).loc main_arg0) := by
  show after hostOps0_2 (after hostOps0_1 (after hostOps0 (W0 m ρ c))) (Proc.devRef .tc main_arg0) = _
  rw [s02_arg0, s01_arg0, s0_arg0]
theorem w3_arg2 : W3 m ρ c (Proc.devRef .tc main_arg2) = m ((c : Thread nD τ).loc main_arg2) := by
  show after hostOps0_2 (after hostOps0_1 (after hostOps0 (W0 m ρ c))) (Proc.devRef .tc main_arg2) = _
  rw [s02_arg2, s01_arg2, s0_arg2]
theorem w3_arg3 : W3 m ρ c (Proc.devRef .tc main_arg3) = m ((c : Thread nD τ).loc main_arg3) := by
  show after hostOps0_2 (after hostOps0_1 (after hostOps0 (W0 m ρ c))) (Proc.devRef .tc main_arg3) = _
  rw [s02_arg3, s01_arg3, s0_arg3]
theorem w3_arg4 : W3 m ρ c (Proc.devRef .tc main_arg4) = m ((c : Thread nD τ).loc main_arg4) := by
  show after hostOps0_2 (after hostOps0_1 (after hostOps0 (W0 m ρ c))) (Proc.devRef .tc main_arg4) = _
  rw [s02_arg4, s01_arg4, s0_arg4]
theorem w3_arg5 : W3 m ρ c (Proc.devRef .tc main_arg5) = m ((c : Thread nD τ).loc main_arg5) := by
  show after hostOps0_2 (after hostOps0_1 (after hostOps0 (W0 m ρ c))) (Proc.devRef .tc main_arg5) = _
  rw [s02_arg5, s01_arg5, s0_arg5]
theorem w3_arg6 : W3 m ρ c (Proc.devRef .tc main_arg6) = m ((c : Thread nD τ).loc main_arg6) := by
  show after hostOps0_2 (after hostOps0_1 (after hostOps0 (W0 m ρ c))) (Proc.devRef .tc main_arg6) = _
  rw [s02_arg6, s01_arg6, s0_arg6]
theorem w3_arg7 : W3 m ρ c (Proc.devRef .tc main_arg7) = m ((c : Thread nD τ).loc main_arg7) := by
  show after hostOps0_2 (after hostOps0_1 (after hostOps0 (W0 m ρ c))) (Proc.devRef .tc main_arg7) = _
  rw [s02_arg7, s01_arg7, s0_arg7]
theorem w3_v15 : W3 m ρ c (Proc.devRef .tc main_v15) = shapeCast S50000x1 (Cert.Graph.dinvArr (Cert.Graph.dstArr (ends m c))) Facts₀.shapeCasts_S50000_S50000x1 := by
  show after hostOps0_2 (after hostOps0_1 (after hostOps0 (W0 m ρ c))) (Proc.devRef .tc main_v15) = _
  rw [s02_v15, s01_v14, s0_v12, s0_v13, s0_cst_2]
  rfl
theorem w4_v5 : W4 m ρ c (Proc.devRef .tc main_v5) = Cert.Graph.srcArr (ends m c) :=
  (W4_of_ne m ρ c main_v5 (by decide)).trans (w3_v5 m ρ c)
theorem w4_v6 : W4 m ρ c (Proc.devRef .tc main_v6) = Cert.Graph.dstArr (ends m c) :=
  (W4_of_ne m ρ c main_v6 (by decide)).trans (w3_v6 m ρ c)
theorem w4_v15 : W4 m ρ c (Proc.devRef .tc main_v15) = shapeCast S50000x1 (Cert.Graph.dinvArr (Cert.Graph.dstArr (ends m c))) Facts₀.shapeCasts_S50000_S50000x1 :=
  ((W4_arr m ρ c 2).trans (((dat0 (V3 m ρ) c).arrAt_in 2 rfl _).trans (A_eq0 (V3 m ρ) c 2))).trans (w3_v15 m ρ c)
theorem w4_arg3 : W4 m ρ c (Proc.devRef .tc main_arg3) = m ((c : Thread nD τ).loc main_arg3) :=
  (W4_of_ne m ρ c main_arg3 (by decide)).trans (w3_arg3 m ρ c)
theorem w4_arg4 : W4 m ρ c (Proc.devRef .tc main_arg4) = m ((c : Thread nD τ).loc main_arg4) :=
  (W4_of_ne m ρ c main_arg4 (by decide)).trans (w3_arg4 m ρ c)
theorem w4_arg5 : W4 m ρ c (Proc.devRef .tc main_arg5) = m ((c : Thread nD τ).loc main_arg5) :=
  (W4_of_ne m ρ c main_arg5 (by decide)).trans (w3_arg5 m ρ c)
theorem w4_arg6 : W4 m ρ c (Proc.devRef .tc main_arg6) = m ((c : Thread nD τ).loc main_arg6) :=
  (W4_of_ne m ρ c main_arg6 (by decide)).trans (w3_arg6 m ρ c)
theorem w4_arg7 : W4 m ρ c (Proc.devRef .tc main_arg7) = m ((c : Thread nD τ).loc main_arg7) :=
  (W4_of_ne m ρ c main_arg7 (by decide)).trans (w3_arg7 m ρ c)
theorem w5_v5 : W5 m ρ c (Proc.devRef .tc main_v5) = Cert.Graph.srcArr (ends m c) :=
  (s1_v5 (W4 m ρ c)).trans (w4_v5 m ρ c)
theorem w5_v6 : W5 m ρ c (Proc.devRef .tc main_v6) = Cert.Graph.dstArr (ends m c) :=
  (s1_v6 (W4 m ρ c)).trans (w4_v6 m ρ c)
theorem w5_v15 : W5 m ρ c (Proc.devRef .tc main_v15) = shapeCast S50000x1 (Cert.Graph.dinvArr (Cert.Graph.dstArr (ends m c))) Facts₀.shapeCasts_S50000_S50000x1 :=
  (s1_v15 (W4 m ρ c)).trans (w4_v15 m ρ c)
theorem w5_arg4 : W5 m ρ c (Proc.devRef .tc main_arg4) = m ((c : Thread nD τ).loc main_arg4) :=
  (s1_arg4 (W4 m ρ c)).trans (w4_arg4 m ρ c)
theorem w5_arg5 : W5 m ρ c (Proc.devRef .tc main_arg5) = m ((c : Thread nD τ).loc main_arg5) :=
  (s1_arg5 (W4 m ρ c)).trans (w4_arg5 m ρ c)
theorem w5_arg6 : W5 m ρ c (Proc.devRef .tc main_arg6) = m ((c : Thread nD τ).loc main_arg6) :=
  (s1_arg6 (W4 m ρ c)).trans (w4_arg6 m ρ c)
theorem w5_arg7 : W5 m ρ c (Proc.devRef .tc main_arg7) = m ((c : Thread nD τ).loc main_arg7) :=
  (s1_arg7 (W4 m ρ c)).trans (w4_arg7 m ρ c)
theorem w6_v5 : W6 m ρ c (Proc.devRef .tc main_v5) = Cert.Graph.srcArr (ends m c) :=
  (W6_of_ne m ρ c main_v5 (by decide)).trans (w5_v5 m ρ c)
theorem w6_v6 : W6 m ρ c (Proc.devRef .tc main_v6) = Cert.Graph.dstArr (ends m c) :=
  (W6_of_ne m ρ c main_v6 (by decide)).trans (w5_v6 m ρ c)
theorem w6_v15 : W6 m ρ c (Proc.devRef .tc main_v15) = shapeCast S50000x1 (Cert.Graph.dinvArr (Cert.Graph.dstArr (ends m c))) Facts₀.shapeCasts_S50000_S50000x1 :=
  ((W6_arr m ρ c 1).trans (((dat1 (V5 m ρ) c).arrAt_in 1 rfl _).trans (A_eq1 (V5 m ρ) c 1))).trans (w5_v15 m ρ c)
theorem w6_arg5 : W6 m ρ c (Proc.devRef .tc main_arg5) = m ((c : Thread nD τ).loc main_arg5) :=
  (W6_of_ne m ρ c main_arg5 (by decide)).trans (w5_arg5 m ρ c)
theorem w6_arg6 : W6 m ρ c (Proc.devRef .tc main_arg6) = m ((c : Thread nD τ).loc main_arg6) :=
  (W6_of_ne m ρ c main_arg6 (by decide)).trans (w5_arg6 m ρ c)
theorem w6_arg7 : W6 m ρ c (Proc.devRef .tc main_arg7) = m ((c : Thread nD τ).loc main_arg7) :=
  (W6_of_ne m ρ c main_arg7 (by decide)).trans (w5_arg7 m ρ c)
theorem w7_v5 : W7 m ρ c (Proc.devRef .tc main_v5) = Cert.Graph.srcArr (ends m c) :=
  (s2_v5 (W6 m ρ c)).trans (w6_v5 m ρ c)
theorem w7_v6 : W7 m ρ c (Proc.devRef .tc main_v6) = Cert.Graph.dstArr (ends m c) :=
  (s2_v6 (W6 m ρ c)).trans (w6_v6 m ρ c)
theorem w7_v15 : W7 m ρ c (Proc.devRef .tc main_v15) = shapeCast S50000x1 (Cert.Graph.dinvArr (Cert.Graph.dstArr (ends m c))) Facts₀.shapeCasts_S50000_S50000x1 :=
  (s2_v15 (W6 m ρ c)).trans (w6_v15 m ρ c)
theorem w7_arg6 : W7 m ρ c (Proc.devRef .tc main_arg6) = m ((c : Thread nD τ).loc main_arg6) :=
  (s2_arg6 (W6 m ρ c)).trans (w6_arg6 m ρ c)
theorem w7_arg7 : W7 m ρ c (Proc.devRef .tc main_arg7) = m ((c : Thread nD τ).loc main_arg7) :=
  (s2_arg7 (W6 m ρ c)).trans (w6_arg7 m ρ c)
theorem w8_v5 : W8 m ρ c (Proc.devRef .tc main_v5) = Cert.Graph.srcArr (ends m c) :=
  (W8_of_ne m ρ c main_v5 (by decide)).trans (w7_v5 m ρ c)
theorem w8_v6 : W8 m ρ c (Proc.devRef .tc main_v6) = Cert.Graph.dstArr (ends m c) :=
  (W8_of_ne m ρ c main_v6 (by decide)).trans (w7_v6 m ρ c)
theorem w8_v15 : W8 m ρ c (Proc.devRef .tc main_v15) = shapeCast S50000x1 (Cert.Graph.dinvArr (Cert.Graph.dstArr (ends m c))) Facts₀.shapeCasts_S50000_S50000x1 :=
  ((W8_arr m ρ c 1).trans (((dat2 (V7 m ρ) c).arrAt_in 1 rfl _).trans (A_eq2 (V7 m ρ) c 1))).trans (w7_v15 m ρ c)
theorem w8_arg7 : W8 m ρ c (Proc.devRef .tc main_arg7) = m ((c : Thread nD τ).loc main_arg7) :=
  (W8_of_ne m ρ c main_arg7 (by decide)).trans (w7_arg7 m ρ c)
theorem w9_v15 : W9 m ρ c (Proc.devRef .tc main_v15) = shapeCast S50000x1 (Cert.Graph.dinvArr (Cert.Graph.dstArr (ends m c))) Facts₀.shapeCasts_S50000_S50000x1 :=
  (s3_v15 (W8 m ρ c)).trans (w8_v15 m ρ c)

/-! ## The arrays read as functions of a row and a column -/

/-- A column holding the node weights, read row by row, is the weights. -/
theorem column_weights (X : S50000x1.Idx → EReal)
    (h : X = shapeCast S50000x1 (Cert.Graph.dinvArr (Cert.Graph.dstArr (ends m c))) Facts₀.shapeCasts_S50000_S50000x1) : column X = dinvF m c := by
  subst h
  funext v
  exact Idealize.ShloMosaic.ColumnLayout.shapeCast_a_a1_apply _ _ v (0 : Fin 1)

/-- A bias laid out as a 1 × 128 row, read along the row, is the bias. -/
theorem row_bias (X : S1x128.Idx → EReal) (b : S128.Idx → EReal)
    (h : X = shapeCast S1x128 b Facts₀.shapeCasts_S128_S1x128) : row X = fun j => b (ix1 j) := by
  subst h
  funext j
  exact shapeCast_a_1a_apply b _ (0 : Fin 1) j

theorem col3 : column (V3 m ρ c main_v15) = dinvF m c := column_weights m c _ (w3_v15 m ρ c)
theorem col5 : column (V5 m ρ c main_v15) = dinvF m c := column_weights m c _ (w5_v15 m ρ c)
theorem col7 : column (V7 m ρ c main_v15) = dinvF m c := column_weights m c _ (w7_v15 m ρ c)
theorem col9 : column (V9 m ρ c main_v15) = dinvF m c := column_weights m c _ (w9_v15 m ρ c)

/-! ## The first region: every row of `x · W1` scaled by its node's weight -/

theorem rows4 : rows (W4 m ρ c (Proc.devRef .tc main_v16)) = y1 m c := by
  funext v j
  show W4 m ρ c (Proc.devRef .tc main_v16) (ix2 v j) = _
  rw [show W4 m ρ c (Proc.devRef .tc main_v16) = (dat0 (V3 m ρ) c).arrAt 3 cfg0.N from W4_arr m ρ c 3]
  rw [final0 (V3 m ρ) c v j, col3 m ρ c, show rows (V3 m ρ c main_arg0) = xF m c from congrArg rows (w3_arg0 m ρ c),
    show table (V3 m ρ c main_arg2) = w1F m c from congrArg table (w3_arg2 m ρ c)]

/-! ## Round 1: the scaled rows gathered and accumulated, then the next region -/

theorem rows5 : rows (V5 m ρ c main_v26) = fun v j => agg (dstF m c) (fun e j => y1 m c (srcF m c e) j) v j := by
  funext v j
  show W5 m ρ c (Proc.devRef .tc main_v26) (ix2 v j) = _
  rw [show W5 m ρ c (Proc.devRef .tc main_v26) = aggArr (W4 m ρ c (Proc.devRef .tc main_v5)) (W4 m ρ c (Proc.devRef .tc main_v6)) (W4 m ρ c (Proc.devRef .tc main_v16)) from s1_v26 (W4 m ρ c)]
  rw [w4_v5, w4_v6, aggArr_apply]
  show agg (dstF m c) (fun k j => rows (W4 m ρ c (Proc.devRef .tc main_v16)) (srcF m c k) j) v j = _
  rw [rows4]

theorem row5 : row (V5 m ρ c main_v27) = b1F m c := by
  have h : W5 m ρ c (Proc.devRef .tc main_v27) = shapeCast S1x128 (m ((c : Thread nD τ).loc main_arg3)) Facts₀.shapeCasts_S128_S1x128 := by
    rw [show W5 m ρ c (Proc.devRef .tc main_v27) = _ from s1_v27 (W4 m ρ c), w4_arg3]
  exact row_bias _ _ h

theorem rows6 : rows (W6 m ρ c (Proc.devRef .tc main_v28)) = y2 m c := by
  funext v j
  show W6 m ρ c (Proc.devRef .tc main_v28) (ix2 v j) = _
  rw [show W6 m ρ c (Proc.devRef .tc main_v28) = (dat1 (V5 m ρ) c).arrAt 4 cfg1.N from W6_arr m ρ c 4]
  rw [final1 (V5 m ρ) c v j, col5 m ρ c, rows5 m ρ c, row5 m ρ c,
    show table (V5 m ρ c main_arg4) = w2F m c from congrArg table (w5_arg4 m ρ c)]
  rfl

/-! ## Round 2: the scaled rows gathered and accumulated, then the next region -/

theorem rows7 : rows (V7 m ρ c main_v38) = fun v j => agg (dstF m c) (fun e j => y2 m c (srcF m c e) j) v j := by
  funext v j
  show W7 m ρ c (Proc.devRef .tc main_v38) (ix2 v j) = _
  rw [show W7 m ρ c (Proc.devRef .tc main_v38) = aggArr (W6 m ρ c (Proc.devRef .tc main_v5)) (W6 m ρ c (Proc.devRef .tc main_v6)) (W6 m ρ c (Proc.devRef .tc main_v28)) from s2_v38 (W6 m ρ c)]
  rw [w6_v5, w6_v6, aggArr_apply]
  show agg (dstF m c) (fun k j => rows (W6 m ρ c (Proc.devRef .tc main_v28)) (srcF m c k) j) v j = _
  rw [rows6]

theorem row7 : row (V7 m ρ c main_v39) = b2F m c := by
  have h : W7 m ρ c (Proc.devRef .tc main_v39) = shapeCast S1x128 (m ((c : Thread nD τ).loc main_arg5)) Facts₀.shapeCasts_S128_S1x128 := by
    rw [show W7 m ρ c (Proc.devRef .tc main_v39) = _ from s2_v39 (W6 m ρ c), w6_arg5]
  exact row_bias _ _ h

theorem rows8 : rows (W8 m ρ c (Proc.devRef .tc main_v40)) = y3 m c := by
  funext v j
  show W8 m ρ c (Proc.devRef .tc main_v40) (ix2 v j) = _
  rw [show W8 m ρ c (Proc.devRef .tc main_v40) = (dat2 (V7 m ρ) c).arrAt 4 cfg2.N from W8_arr m ρ c 4]
  rw [final2 (V7 m ρ) c v j, col7 m ρ c, rows7 m ρ c, row7 m ρ c,
    show table (V7 m ρ c main_arg6) = w3F m c from congrArg table (w7_arg6 m ρ c)]
  rfl

/-! ## Round 3: the scaled rows gathered and accumulated, then the next region -/

theorem rows9 : rows (V9 m ρ c main_v50) = fun v j => agg (dstF m c) (fun e j => y3 m c (srcF m c e) j) v j := by
  funext v j
  show W9 m ρ c (Proc.devRef .tc main_v50) (ix2 v j) = _
  rw [show W9 m ρ c (Proc.devRef .tc main_v50) = aggArr (W8 m ρ c (Proc.devRef .tc main_v5)) (W8 m ρ c (Proc.devRef .tc main_v6)) (W8 m ρ c (Proc.devRef .tc main_v40)) from s3_v50 (W8 m ρ c)]
  rw [w8_v5, w8_v6, aggArr_apply]
  show agg (dstF m c) (fun k j => rows (W8 m ρ c (Proc.devRef .tc main_v40)) (srcF m c k) j) v j = _
  rw [rows8]

theorem row9 : row (V9 m ρ c main_v51) = b3F m c := by
  have h : W9 m ρ c (Proc.devRef .tc main_v51) = shapeCast S1x128 (m ((c : Thread nD τ).loc main_arg7)) Facts₀.shapeCasts_S128_S1x128 := by
    rw [show W9 m ρ c (Proc.devRef .tc main_v51) = _ from s3_v51 (W8 m ρ c), w8_arg7]
  exact row_bias _ _ h

/-! ## The result -/

/-- THE KERNEL'S RESULT, entry by entry: three rounds with the weights applied node by node. -/
theorem result_apply (v : Fin 50000) (j : Fin 128) :
    W10 m ρ c (Proc.devRef .tc main_v52) (ix2 v j)
      = nodewise (dinvF m c) (srcF m c) (dstF m c) (xF m c) (w1F m c) (b1F m c) (w2F m c) (b2F m c) (w3F m c) (b3F m c) v j := by
  rw [show W10 m ρ c (Proc.devRef .tc main_v52) = (dat3 (V9 m ρ) c).arrAt 3 cfg3.N from W10_arr m ρ c 3]
  rw [final3 (V9 m ρ) c v j, col9 m ρ c, rows9 m ρ c, row9 m ρ c]
  rfl

end Cert.KernelIdeal.Whole

end
-- ==== Proof.LibVectorGather.lean ====
/-
  A general fact about gathering single entries of a vector.

  Take a vector with N entries and a column of R start indices (an R × 1 integer array). Gathering with the one axis
  collapsed, no offset axis, the start index naming that axis and slices of one entry produces a vector with R entries
  whose entry r is the vector's entry k, where k is the r-th start index read as a signed integer and clamped into
  0 … N − 1 (what indexing a vector by an integer array lowers to). Nothing here depends on a particular program.
-/
import Idealize.ShloMosaic.PureOps.Ideal
import Idealize.ShloMosaic.Lib.ValueIdx

noncomputable section

namespace Idealize.ShloMosaic.VectorGather

open Idealize.ShloMosaic Idealize.ShloMosaic.ValueIdx

variable {α : Type}

/-- The dimension numbers of a gather of single entries from a vector of `N` entries at an `R × 1` column of start
    indices. -/
abbrev entryDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `r` of a gather of single entries is the vector's entry `k`, `k` the `r`-th start index read signed and
    clamped into `0 … N − 1`. -/
theorem gather_entry_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entryDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (entryDims N R wf).start (ix1 r) idx 0 + (entryDims N R wf).batchCoord (ix1 r) 0
        + (entryDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entryDims N R wf).startIndexMap from List.mem_singleton.mpr rfl)]
    have hsi : (entryDims N R wf).siIdx (ix1 r) ⟨List.idxOf (0 : Fin 1) (entryDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Idealize.ShloMosaic.VectorGather

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.RefStretch.lean ====
/-
  The reference's line of 106 host operations read a stretch at a time.

  The line is cut into nine stretches. For an arbitrary starting valuation each stretch leaves, in the one buffer
  later stretches read from it, a small array expression of the values it started from, and leaves every buffer
  it does not write as it was. The expressions are named here: the per-edge weight (the product of the node
  weights gathered at the wrapped source and target columns), one round (dense product, source rows gathered and
  scaled by the edge weight, accumulated at the raw target column onto zeros, bias row added), and the maximum
  with zero. The two outlined calls (the selection that builds the node weights and the rectifier) are stretches
  of their own: their operations move values through typed references, which a value written and read back
  undoes.
-/
import proofs.«182050_j75342316306432_2_alg».proof.ReferenceIdeal
import proofs.«182050_j75342316306432_2_alg».proof.Proof.Gen.ReferenceIdeal
import proofs.«182050_j75342316306432_2_alg».proof.Proof.Graph
import proofs.«182050_j75342316306432_2_alg».proof.Proof.Rounds
import proofs.«182050_j75342316306432_2_alg».proof.Proof.LibHostStretches
import proofs.«182050_j75342316306432_2_alg».proof.Proof.LibRowGather
import proofs.«182050_j75342316306432_2_alg».proof.Proof.LibRowScatterAdd
import proofs.«182050_j75342316306432_2_alg».proof.Proof.LibVectorGather
import proofs.«182050_j75342316306432_2_alg».proof.Proof.LibHostColumn
import proofs.«182050_j75342316306432_2_alg».proof.Proof.LibRowsTimes
import proofs.«182050_j75342316306432_2_alg».proof.Proof.LibRowsCols
import proofs.«182050_j75342316306432_2_alg».proof.Proof.RefLine
import Idealize.ShloMosaic.Lib.StableHlo.Run
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

/-- The per-edge weight: the node weight at the edge's source row times the node weight at its target row. -/
def normArr (s d : IVec S650000 32) (dinv : FVec Ideal S50000 .f32) : FVec Ideal S650000 .f32 :=
  mulf (Host.gather gather_S50000_S650000x1_S650000_n_0_n_n_0_1_1 dinv (Cert.Graph.wrapCol s))
    (Host.gather gather_S50000_S650000x1_S650000_n_0_n_n_0_1_1 dinv (Cert.Graph.wrapCol d))

/-- One round as arrays. -/
def roundArr (s d : IVec S650000 32) (nrm : FVec Ideal S650000 .f32) (h : FVec Ideal S50000x128 .f32)
    (Wt : FVec Ideal S128x128 .f32) (b : FVec Ideal S128 .f32) : FVec Ideal S50000x128 .f32 :=
  addf
    (Host.scatterAdd (F := Ideal) scatter_S50000x128_S650000x1_S650000x128_1_0_0_1
      (broadcastInDim S50000x128 ![] bcast_S_S50000x128 (constant (F := Ideal) S_ .f32 0x00000000#32))
      (Cert.Graph.rawCol d)
      (mulf
        (broadcastInDim S650000x128 ![0, 1] bcast_S650000x1_S650000x128_0_1
          (broadcastInDim S650000x1 ![0] bcast_S650000_S650000x1_0 nrm))
        (Host.gather gather_S50000x128_S650000x1_S650000x128_1_0_n_n_0_1_1128
          (Host.dotGeneral (F := Ideal) dot_S50000x128_S128x128_S50000x128_1_0_0_1_n_n none h Wt) (Cert.Graph.wrapCol s))))
    (broadcastInDim S50000x128 ![0, 1] bcast_S1x128_S50000x128_0_1 (broadcastInDim S1x128 ![1] bcast_S128_S1x128_1 b))

/-- The maximum with zero as arrays. -/
def reluArr (x : FVec Ideal S50000x128 .f32) : FVec Ideal S50000x128 .f32 :=
  maximumf x (broadcastInDim S50000x128 ![] bcast_S_S50000x128 (constant (F := Ideal) S_ .f32 0x00000000#32))

/-- The line at the extended reals. -/
abbrev L : List (HloOp τ sig (Elt Ideal)) := Line.ops (F := Ideal)

/-! The nine stretches: the line's first 7 operations, then 11, 3, 19, 20, 3, 20, 3 and the last 20. -/
abbrev T1 := L.drop 7
abbrev T2 := T1.drop 11
abbrev T3 := T2.drop 3
abbrev T4 := T3.drop 19
abbrev T5 := T4.drop 20
abbrev T6 := T5.drop 3
abbrev T7 := T6.drop 20
abbrev T8 := T7.drop 3
abbrev S0 := L.take 7
abbrev S1 := T1.take 11
abbrev S2 := T2.take 3
abbrev S3 := T3.take 19
abbrev S4 := T4.take 20
abbrev S5 := T5.take 3
abbrev S6 := T6.take 20
abbrev S7 := T7.take 3
abbrev S8 := T8

/-- The line run as its nine stretches in turn. -/
theorem after_L (W : Valuation τ sig (Elt Ideal)) :
    after L W = after S8 (after S7 (after S6 (after S5 (after S4 (after S3 (after S2 (after S1 (after S0 W)))))))) :=
  (Cert.HostLine.after_split 7 L W).trans <|
  (Cert.HostLine.after_split 11 T1 _).trans <|
  (Cert.HostLine.after_split 3 T2 _).trans <|
  (Cert.HostLine.after_split 19 T3 _).trans <|
  (Cert.HostLine.after_split 20 T4 _).trans <|
  (Cert.HostLine.after_split 3 T5 _).trans <|
  (Cert.HostLine.after_split 20 T6 _).trans <|
  (Cert.HostLine.after_split 3 T7 _)

/-! ## What each stretch leaves alone -/

set_option maxHeartbeats 1000000 in
/-- A buffer the first stretch does not write keeps its contents. -/
theorem keep0 (V : Valuation τ sig (Elt Ideal)) (r : Ref sig .tc)
    (hr : r ∉ [main_v0, main_v1, main_v2, main_v3, main_v4, main_v5, main_v6]) :
    after S0 V (Proc.devRef .tc r) = V (Proc.devRef .tc r) :=
  after_of_forall_not_mem (b := (Proc.devRef .tc r)) _ _ (List.forall_iff_forall_mem.mp (by
    simp only [L, T1, T2, T3, T4, T5, T6, T7, T8, S0, S1, S2, S3, S4, S5, S6, S7, S8, Line.ops, List.take_succ_cons, List.take_zero, List.drop_succ_cons, List.drop_zero, List.Forall, nullary_writes, unary_writes, binary_writes, ternary_writes,
      reshape_writes, Finset.mem_singleton]
    repeat' apply And.intro
    all_goals exact devRef_ne_of_ne (fun e => by subst e; exact hr (by decide))))

set_option maxHeartbeats 1000000 in
/-- A buffer the second stretch does not write keeps its contents. -/
theorem keep1 (V : Valuation τ sig (Elt Ideal)) (r : Ref sig .tc)
    (hr : r ∉ [main_cst, main_v7, main_cst_0, main_v8, main_v9, main_v10, main_cst_1, main_v11, main_v12, main_v13, main_cst_2]) :
    after S1 V (Proc.devRef .tc r) = V (Proc.devRef .tc r) :=
  after_of_forall_not_mem (b := (Proc.devRef .tc r)) _ _ (List.forall_iff_forall_mem.mp (by
    simp only [L, T1, T2, T3, T4, T5, T6, T7, T8, S0, S1, S2, S3, S4, S5, S6, S7, S8, Line.ops, List.take_succ_cons, List.take_zero, List.drop_succ_cons, List.drop_zero, List.Forall, nullary_writes, unary_writes, binary_writes, ternary_writes,
      reshape_writes, Finset.mem_singleton]
    repeat' apply And.intro
    all_goals exact devRef_ne_of_ne (fun e => by subst e; exact hr (by decide))))

set_option maxHeartbeats 1000000 in
/-- A buffer the third stretch does not write keeps its contents. -/
theorem keep2 (V : Valuation τ sig (Elt Ideal)) (r : Ref sig .tc)
    (hr : r ∉ [main_call0_v0, main_call0_v1, main_v14]) :
    after S2 V (Proc.devRef .tc r) = V (Proc.devRef .tc r) :=
  after_of_forall_not_mem (b := (Proc.devRef .tc r)) _ _ (List.forall_iff_forall_mem.mp (by
    simp only [L, T1, T2, T3, T4, T5, T6, T7, T8, S0, S1, S2, S3, S4, S5, S6, S7, S8, Line.ops, List.take_succ_cons, List.take_zero, List.drop_succ_cons, List.drop_zero, List.Forall, nullary_writes, unary_writes, binary_writes, ternary_writes,
      reshape_writes, Finset.mem_singleton]
    repeat' apply And.intro
    all_goals exact devRef_ne_of_ne (fun e => by subst e; exact hr (by decide))))

set_option maxHeartbeats 1000000 in
/-- A buffer the fourth stretch does not write keeps its contents. -/
theorem keep3 (V : Valuation τ sig (Elt Ideal)) (r : Ref sig .tc)
    (hr : r ∉ [main_c, main_v15, main_v16, main_c_3, main_v17, main_v18, main_v19, main_v20, main_v21, main_c_4, main_v22, main_v23, main_c_5, main_v24, main_v25, main_v26, main_v27, main_v28, main_v29]) :
    after S3 V (Proc.devRef .tc r) = V (Proc.devRef .tc r) :=
  after_of_forall_not_mem (b := (Proc.devRef .tc r)) _ _ (List.forall_iff_forall_mem.mp (by
    simp only [L, T1, T2, T3, T4, T5, T6, T7, T8, S0, S1, S2, S3, S4, S5, S6, S7, S8, Line.ops, List.take_succ_cons, List.take_zero, List.drop_succ_cons, List.drop_zero, List.Forall, nullary_writes, unary_writes, binary_writes, ternary_writes,
      reshape_writes, Finset.mem_singleton]
    repeat' apply And.intro
    all_goals exact devRef_ne_of_ne (fun e => by subst e; exact hr (by decide))))

set_option maxHeartbeats 1000000 in
/-- A buffer the fifth stretch does not write keeps its contents. -/
theorem keep4 (V : Valuation τ sig (Elt Ideal)) (r : Ref sig .tc)
    (hr : r ∉ [main_v30, main_v31, main_c_6, main_v32, main_v33, main_c_7, main_v34, main_v35, main_v36, main_v37, main_v38, main_v39, main_v40, main_cst_8, main_v41, main_v42, main_v43, main_v44, main_v45, main_v46]) :
    after S4 V (Proc.devRef .tc r) = V (Proc.devRef .tc r) :=
  after_of_forall_not_mem (b := (Proc.devRef .tc r)) _ _ (List.forall_iff_forall_mem.mp (by
    simp only [L, T1, T2, T3, T4, T5, T6, T7, T8, S0, S1, S2, S3, S4, S5, S6, S7, S8, Line.ops, List.take_succ_cons, List.take_zero, List.drop_succ_cons, List.drop_zero, List.Forall, nullary_writes, unary_writes, binary_writes, ternary_writes,
      reshape_writes, Finset.mem_singleton]
    repeat' apply And.intro
    all_goals exact devRef_ne_of_ne (fun e => by subst e; exact hr (by decide))))

set_option maxHeartbeats 1000000 in
/-- A buffer the sixth stretch does not write keeps its contents. -/
theorem keep5 (V : Valuation τ sig (Elt Ideal)) (r : Ref sig .tc)
    (hr : r ∉ [main_call1_cst, main_call1_v0, main_v47]) :
    after S5 V (Proc.devRef .tc r) = V (Proc.devRef .tc r) :=
  after_of_forall_not_mem (b := (Proc.devRef .tc r)) _ _ (List.forall_iff_forall_mem.mp (by
    simp only [L, T1, T2, T3, T4, T5, T6, T7, T8, S0, S1, S2, S3, S4, S5, S6, S7, S8, Line.ops, List.take_succ_cons, List.take_zero, List.drop_succ_cons, List.drop_zero, List.Forall, nullary_writes, unary_writes, binary_writes, ternary_writes,
      reshape_writes, Finset.mem_singleton]
    repeat' apply And.intro
    all_goals exact devRef_ne_of_ne (fun e => by subst e; exact hr (by decide))))

set_option maxHeartbeats 1000000 in
/-- A buffer the seventh stretch does not write keeps its contents. -/
theorem keep6 (V : Valuation τ sig (Elt Ideal)) (r : Ref sig .tc)
    (hr : r ∉ [main_v48, main_v49, main_c_9, main_v50, main_v51, main_c_10, main_v52, main_v53, main_v54, main_v55, main_v56, main_v57, main_v58, main_cst_11, main_v59, main_v60, main_v61, main_v62, main_v63, main_v64]) :
    after S6 V (Proc.devRef .tc r) = V (Proc.devRef .tc r) :=
  after_of_forall_not_mem (b := (Proc.devRef .tc r)) _ _ (List.forall_iff_forall_mem.mp (by
    simp only [L, T1, T2, T3, T4, T5, T6, T7, T8, S0, S1, S2, S3, S4, S5, S6, S7, S8, Line.ops, List.take_succ_cons, List.take_zero, List.drop_succ_cons, List.drop_zero, List.Forall, nullary_writes, unary_writes, binary_writes, ternary_writes,
      reshape_writes, Finset.mem_singleton]
    repeat' apply And.intro
    all_goals exact devRef_ne_of_ne (fun e => by subst e; exact hr (by decide))))

set_option maxHeartbeats 1000000 in
/-- A buffer the eighth stretch does not write keeps its contents. -/
theorem keep7 (V : Valuation τ sig (Elt Ideal)) (r : Ref sig .tc)
    (hr : r ∉ [main_call2_cst, main_call2_v0, main_v65]) :
    after S7 V (Proc.devRef .tc r) = V (Proc.devRef .tc r) :=
  after_of_forall_not_mem (b := (Proc.devRef .tc r)) _ _ (List.forall_iff_forall_mem.mp (by
    simp only [L, T1, T2, T3, T4, T5, T6, T7, T8, S0, S1, S2, S3, S4, S5, S6, S7, S8, Line.ops, List.take_succ_cons, List.take_zero, List.drop_succ_cons, List.drop_zero, List.Forall, nullary_writes, unary_writes, binary_writes, ternary_writes,
      reshape_writes, Finset.mem_singleton]
    repeat' apply And.intro
    all_goals exact devRef_ne_of_ne (fun e => by subst e; exact hr (by decide))))

set_option maxHeartbeats 1000000 in
/-- A buffer the ninth stretch does not write keeps its contents. -/
theorem keep8 (V : Valuation τ sig (Elt Ideal)) (r : Ref sig .tc)
    (hr : r ∉ [main_v66, main_v67, main_c_12, main_v68, main_v69, main_c_13, main_v70, main_v71, main_v72, main_v73, main_v74, main_v75, main_v76, main_cst_14, main_v77, main_v78, main_v79, main_v80, main_v81, main_v82]) :
    after S8 V (Proc.devRef .tc r) = V (Proc.devRef .tc r) :=
  after_of_forall_not_mem (b := (Proc.devRef .tc r)) _ _ (List.forall_iff_forall_mem.mp (by
    simp only [L, T1, T2, T3, T4, T5, T6, T7, T8, S0, S1, S2, S3, S4, S5, S6, S7, S8, Line.ops, List.take_succ_cons, List.take_zero, List.drop_succ_cons, List.drop_zero, List.Forall, nullary_writes, unary_writes, binary_writes, ternary_writes,
      reshape_writes, Finset.mem_singleton]
    repeat' apply And.intro
    all_goals exact devRef_ne_of_ne (fun e => by subst e; exact hr (by decide))))

/-! ## What each stretch computes -/

/-- The first stretch leaves the source numbers. -/
theorem s0_v3 (V : Valuation τ sig (Elt Ideal)) :
    after S0 V (Proc.devRef .tc main_v3) = Cert.Graph.srcArr (V (Proc.devRef .tc main_arg1)) := by
  simp only [L, T1, T2, T3, T4, T5, T6, T7, T8, S0, S1, S2, S3, S4, S5, S6, S7, S8, Line.ops, List.take_succ_cons, List.take_zero, List.drop_succ_cons, List.drop_zero]
  after_results
  rfl

/-- The first stretch leaves the target numbers. -/
theorem s0_v6 (V : Valuation τ sig (Elt Ideal)) :
    after S0 V (Proc.devRef .tc main_v6) = Cert.Graph.dstArr (V (Proc.devRef .tc main_arg1)) := by
  simp only [L, T1, T2, T3, T4, T5, T6, T7, T8, S0, S1, S2, S3, S4, S5, S6, S7, S8, Line.ops, List.take_succ_cons, List.take_zero, List.drop_succ_cons, List.drop_zero]
  after_results
  rfl

/-- The second stretch leaves the test "the in-degree is positive". -/
theorem s1_v12 (V : Valuation τ sig (Elt Ideal)) :
    after S1 V (Proc.devRef .tc main_v12)
      = cmpf .ogt (Cert.Graph.degArr (V (Proc.devRef .tc main_v6))) (broadcastInDim S50000 ![] bcast_S_S50000 (constant (F := Ideal) S_ .f32 0x00000000#32)) := by
  simp only [L, T1, T2, T3, T4, T5, T6, T7, T8, S0, S1, S2, S3, S4, S5, S6, S7, S8, Line.ops, List.take_succ_cons, List.take_zero, List.drop_succ_cons, List.drop_zero]
  after_results_simp
  rfl

/-- The second stretch leaves the inverse square root of the in-degree. -/
theorem s1_v13 (V : Valuation τ sig (Elt Ideal)) :
    after S1 V (Proc.devRef .tc main_v13) = Host.rsqrt (F := Ideal) (Cert.Graph.degArr (V (Proc.devRef .tc main_v6))) := by
  simp only [L, T1, T2, T3, T4, T5, T6, T7, T8, S0, S1, S2, S3, S4, S5, S6, S7, S8, Line.ops, List.take_succ_cons, List.take_zero, List.drop_succ_cons, List.drop_zero]
  after_results_simp
  rfl

/-- The second stretch leaves the zero the selection falls back to. -/
theorem s1_cst_2 (V : Valuation τ sig (Elt Ideal)) :
    after S1 V (Proc.devRef .tc main_cst_2) = (constant (F := Ideal) S_ .f32 0x00000000#32) := by
  simp only [L, T1, T2, T3, T4, T5, T6, T7, T8, S0, S1, S2, S3, S4, S5, S6, S7, S8, Line.ops, List.take_succ_cons, List.take_zero, List.drop_succ_cons, List.drop_zero]
  after_results_simp

/-- The third stretch (the outlined selection) chooses, node by node, between the two values it is handed. -/
theorem s2_v14 (V : Valuation τ sig (Elt Ideal)) :
    after S2 V (Proc.devRef .tc main_v14)
      = select (V (Proc.devRef .tc main_v12)) (V (Proc.devRef .tc main_v13))
          (broadcastInDim S50000 ![] bcast_S_S50000 (id (V (Proc.devRef .tc main_cst_2)))) := by
  simp only [L, T1, T2, T3, T4, T5, T6, T7, T8, S0, S1, S2, S3, S4, S5, S6, S7, S8, Line.ops, List.take_succ_cons, List.take_zero, List.drop_succ_cons, List.drop_zero]
  after_results
  simp only [Cert.HostLine.ofBuf_toBuf]
  rfl

/-- The node weights, spelt as the second and third stretches leave them. -/
theorem dinvArr_eq (d : IVec S650000 32) :
    select (cmpf .ogt (Cert.Graph.degArr d) (broadcastInDim S50000 ![] bcast_S_S50000 (constant (F := Ideal) S_ .f32 0x00000000#32)))
        (Host.rsqrt (F := Ideal) (Cert.Graph.degArr d))
        (broadcastInDim S50000 ![] bcast_S_S50000 (id (constant (F := Ideal) S_ .f32 0x00000000#32)))
      = Cert.Graph.dinvArr d := rfl

/-- The fourth stretch leaves the per-edge weights. -/
theorem s3_v29 (V : Valuation τ sig (Elt Ideal)) :
    after S3 V (Proc.devRef .tc main_v29)
      = normArr (V (Proc.devRef .tc main_v3)) (V (Proc.devRef .tc main_v6)) (V (Proc.devRef .tc main_v14)) := by
  simp only [L, T1, T2, T3, T4, T5, T6, T7, T8, S0, S1, S2, S3, S4, S5, S6, S7, S8, Line.ops, List.take_succ_cons, List.take_zero, List.drop_succ_cons, List.drop_zero]
  after_results_simp
  rfl

/-- The fifth stretch is one round, before the rectifier. -/
theorem s4_v46 (V : Valuation τ sig (Elt Ideal)) :
    after S4 V (Proc.devRef .tc main_v46)
      = roundArr (V (Proc.devRef .tc main_v3)) (V (Proc.devRef .tc main_v6)) (V (Proc.devRef .tc main_v29))
          (V (Proc.devRef .tc main_arg0)) (V (Proc.devRef .tc main_arg2)) (V (Proc.devRef .tc main_arg3)) := by
  simp only [L, T1, T2, T3, T4, T5, T6, T7, T8, S0, S1, S2, S3, S4, S5, S6, S7, S8, Line.ops, List.take_succ_cons, List.take_zero, List.drop_succ_cons, List.drop_zero]
  after_results_simp
  rfl

/-- The sixth stretch (the outlined rectifier) is the maximum with zero. -/
theorem s5_v47 (V : Valuation τ sig (Elt Ideal)) :
    after S5 V (Proc.devRef .tc main_v47) = reluArr (V (Proc.devRef .tc main_v46)) := by
  simp only [L, T1, T2, T3, T4, T5, T6, T7, T8, S0, S1, S2, S3, S4, S5, S6, S7, S8, Line.ops, List.take_succ_cons, List.take_zero, List.drop_succ_cons, List.drop_zero]
  after_results
  simp only [Cert.HostLine.ofBuf_toBuf]
  rfl

/-- The seventh stretch is one round, before the rectifier. -/
theorem s6_v64 (V : Valuation τ sig (Elt Ideal)) :
    after S6 V (Proc.devRef .tc main_v64)
      = roundArr (V (Proc.devRef .tc main_v3)) (V (Proc.devRef .tc main_v6)) (V (Proc.devRef .tc main_v29))
          (V (Proc.devRef .tc main_v47)) (V (Proc.devRef .tc main_arg4)) (V (Proc.devRef .tc main_arg5)) := by
  simp only [L, T1, T2, T3, T4, T5, T6, T7, T8, S0, S1, S2, S3, S4, S5, S6, S7, S8, Line.ops, List.take_succ_cons, List.take_zero, List.drop_succ_cons, List.drop_zero]
  after_results_simp
  rfl

/-- The eighth stretch (the outlined rectifier) is the maximum with zero. -/
theorem s7_v65 (V : Valuation τ sig (Elt Ideal)) :
    after S7 V (Proc.devRef .tc main_v65) = reluArr (V (Proc.devRef .tc main_v64)) := by
  simp only [L, T1, T2, T3, T4, T5, T6, T7, T8, S0, S1, S2, S3, S4, S5, S6, S7, S8, Line.ops, List.take_succ_cons, List.take_zero, List.drop_succ_cons, List.drop_zero]
  after_results
  simp only [Cert.HostLine.ofBuf_toBuf]
  rfl

/-- The ninth stretch is one round. -/
theorem s8_v82 (V : Valuation τ sig (Elt Ideal)) :
    after S8 V (Proc.devRef .tc main_v82)
      = roundArr (V (Proc.devRef .tc main_v3)) (V (Proc.devRef .tc main_v6)) (V (Proc.devRef .tc main_v29))
          (V (Proc.devRef .tc main_v65)) (V (Proc.devRef .tc main_arg6)) (V (Proc.devRef .tc main_arg7)) := by
  simp only [L, T1, T2, T3, T4, T5, T6, T7, T8, S0, S1, S2, S3, S4, S5, S6, S7, S8, Line.ops, List.take_succ_cons, List.take_zero, List.drop_succ_cons, List.drop_zero]
  after_results_simp
  rfl

end Cert.ReferenceIdeal.RefValue

end
-- ==== Proof.RefValue.lean ====
/-
  The reference program's result, entry by entry.

  Run from any contents W of the buffers, the reference's 106 host operations leave in the result buffer three rounds
  of normalised neighbourhood averaging over the graph its edge table describes, with a rectifier after the first
  two rounds: at node v and feature j, the edge-by-edge form `Cert.Gcn.edgewise` of the node weights, the edges'
  source rows, their target rows in the weight table and their raw target numbers, applied to the input features,
  the three dense matrices and the three bias rows. And they leave the eight argument buffers as they were.

  The array a round leaves is read at an entry with the general facts about its operations: the dense product is a
  sum over the contraction index; gathering whole rows at a column of numbers reads the row the number names
  (signed, clamped into the table); the two-step broadcasts read a vector at the row or at the column;
  accumulating rows at a column of raw numbers adds, onto zero, the rows whose number is the node; the zero word is
  the real zero.
-/
import proofs.«182050_j75342316306432_2_alg».proof.ReferenceIdeal
import proofs.«182050_j75342316306432_2_alg».proof.Proof.Gen.ReferenceIdeal
import proofs.«182050_j75342316306432_2_alg».proof.Proof.Graph
import proofs.«182050_j75342316306432_2_alg».proof.Proof.Rounds
import proofs.«182050_j75342316306432_2_alg».proof.Proof.LibHostStretches
import proofs.«182050_j75342316306432_2_alg».proof.Proof.LibRowGather
import proofs.«182050_j75342316306432_2_alg».proof.Proof.LibRowScatterAdd
import proofs.«182050_j75342316306432_2_alg».proof.Proof.LibVectorGather
import proofs.«182050_j75342316306432_2_alg».proof.Proof.LibHostColumn
import proofs.«182050_j75342316306432_2_alg».proof.Proof.LibRowsTimes
import proofs.«182050_j75342316306432_2_alg».proof.Proof.LibRowsCols
import proofs.«182050_j75342316306432_2_alg».proof.Proof.RefLine
import proofs.«182050_j75342316306432_2_alg».proof.Proof.RefStretch
import Idealize.ShloMosaic.Lib.StableHlo.Run
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

/-! ## One round, the edge weights and the rectifier at an entry -/

/-- The printed contraction record is "rows times columns": one contracted axis, of extent 128; at output entry
    (r, j) and contraction position k the left operand is read at (r, k) and the right one at (k, j). -/
theorem dot_rowsCols : Cert.Dense.RowsCols dot_S50000x128_S128x128_S50000x128_1_0_0_1_n_n where
  rank := rfl
  size := rfl
  l0 := fun _ _ => rfl
  l1 := fun _ _ => rfl
  r0 := fun _ _ => rfl
  r1 := fun _ _ => rfl

/-- The dense product read at an entry. -/
theorem dot_apply (h : FVec Ideal S50000x128 .f32) (Wt : FVec Ideal S128x128 .f32) (r : Fin 50000) (j : Fin 128) :
    Host.dotGeneral (F := Ideal) dot_S50000x128_S128x128_S50000x128_1_0_0_1_n_n none h Wt (ix2 r j)
      = Cert.Gcn.mm (fun v k => h (ix2 v k)) (fun k j => Wt (ix2 k j)) r j :=
  Cert.Dense.dotGeneral_apply dot_rowsCols none h Wt (ix2 r j)

/-- ONE ROUND AT AN ENTRY. -/
theorem roundArr_apply (s d : IVec S650000 32) (nrm : FVec Ideal S650000 .f32) (h : FVec Ideal S50000x128 .f32)
    (Wt : FVec Ideal S128x128 .f32) (b : FVec Ideal S128 .f32) (v : Fin 50000) (j : Fin 128) :
    roundArr s d nrm h Wt b (ix2 v j)
      = Cert.Gcn.byEdges (fun e => nrm (ix1 e)) (Cert.Graph.rowOf (Cert.Graph.wrapCol s))
          (fun e => (Cert.Graph.rawCol d (ix2 e (0 : Fin 1))).toInt) (fun j => b (ix1 j))
          (Cert.Gcn.mm (fun v k => h (ix2 v k)) (fun k j => Wt (ix2 k j))) v j := by
  unfold roundArr Cert.Gcn.byEdges Cert.Gcn.agg
  rw [addf_apply, HostColumn.row_apply,
    show scatter_S50000x128_S650000x1_S650000x128_1_0_0_1
      = RowScatter.rowDims 50000 650000 128 scatter_S50000x128_S650000x1_S650000x128_1_0_0_1_wf from rfl,
    RowScatter.host_scatterAdd_row_apply]
  refine congrArg (· + b (ix1 j)) (congrArg₂ (· + ·) Ideal.ofBits_zero_f32 (Finset.sum_congr rfl fun e _ => ?_))
  · rw [mulf_apply, HostColumn.column_apply,
      show gather_S50000x128_S650000x1_S650000x128_1_0_n_n_0_1_1128
        = RowGather.rowDims 50000 650000 128 gather_S50000x128_S650000x1_S650000x128_1_0_n_n_0_1_1128_wf from rfl,
      RowGather.gather_row_apply (by decide), dot_apply]
    rfl

/-- The per-edge weight at an edge. -/
theorem normArr_apply (s d : IVec S650000 32) (dinv : FVec Ideal S50000 .f32) (e : Fin 650000) :
    normArr s d dinv (ix1 e)
      = dinv (ix1 (Cert.Graph.rowOf (Cert.Graph.wrapCol s) e)) * dinv (ix1 (Cert.Graph.rowOf (Cert.Graph.wrapCol d) e)) := by
  unfold normArr
  rw [mulf_apply, show gather_S50000_S650000x1_S650000_n_0_n_n_0_1_1
      = VectorGather.entryDims 50000 650000 gather_S50000_S650000x1_S650000_n_0_n_n_0_1_1_wf from rfl,
    VectorGather.gather_entry_apply (by decide), VectorGather.gather_entry_apply (by decide)]
  rfl

/-- The maximum with zero at an entry. -/
theorem reluArr_apply (x : FVec Ideal S50000x128 .f32) (v : Fin 50000) (j : Fin 128) :
    reluArr x (ix2 v j) = Cert.Gcn.relu (fun v j => x (ix2 v j)) v j := by
  show max (x (ix2 v j)) (Ideal.ofBits .f32 0x00000000#32) = max (x (ix2 v j)) 0
  rw [Ideal.ofBits_zero_f32]

/-- One round read as a function of node and feature. -/
theorem round_fun (s d : IVec S650000 32) (nrm : FVec Ideal S650000 .f32) (h : FVec Ideal S50000x128 .f32)
    (Wt : FVec Ideal S128x128 .f32) (b : FVec Ideal S128 .f32) :
    (fun (v : Fin 50000) (j : Fin 128) => roundArr s d nrm h Wt b (ix2 v j))
      = Cert.Gcn.byEdges (fun e => nrm (ix1 e)) (Cert.Graph.rowOf (Cert.Graph.wrapCol s))
          (fun e => (Cert.Graph.rawCol d (ix2 e (0 : Fin 1))).toInt) (fun j => b (ix1 j))
          (Cert.Gcn.mm (fun v k => h (ix2 v k)) (fun k j => Wt (ix2 k j))) :=
  funext fun v => funext fun j => roundArr_apply s d nrm h Wt b v j

/-- The rectifier read as a function of node and feature. -/
theorem relu_fun (x : FVec Ideal S50000x128 .f32) :
    (fun (v : Fin 50000) (j : Fin 128) => reluArr x (ix2 v j)) = Cert.Gcn.relu (fun v j => x (ix2 v j)) :=
  funext fun v => funext fun j => reluArr_apply x v j

/-! ## The three rounds -/

/-- Three rounds as arrays, the rectifier after the first two. -/
def threeRounds (s d : IVec S650000 32) (nrm : FVec Ideal S650000 .f32) (x : FVec Ideal S50000x128 .f32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) : FVec Ideal S50000x128 .f32 :=
  roundArr s d nrm (reluArr (roundArr s d nrm (reluArr (roundArr s d nrm x W1 b1)) W2 b2)) W3 b3

/-- THE RESULT AS AN ARRAY: what the line leaves in the result buffer is three rounds over the graph's arrays. -/
theorem result_arr (W : Valuation τ sig (Elt Ideal)) :
    after L W (Proc.devRef .tc main_v82)
      = threeRounds (Cert.Graph.srcArr (W (Proc.devRef .tc main_arg1))) (Cert.Graph.dstArr (W (Proc.devRef .tc main_arg1)))
          (normArr (Cert.Graph.srcArr (W (Proc.devRef .tc main_arg1))) (Cert.Graph.dstArr (W (Proc.devRef .tc main_arg1)))
            (Cert.Graph.dinvArr (Cert.Graph.dstArr (W (Proc.devRef .tc main_arg1)))))
          (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [after_L,
    s8_v82,
    keep7 _ main_v3 (by decide), keep7 _ main_v6 (by decide), keep7 _ main_v29 (by decide), s7_v65, keep7 _ main_arg6 (by decide), keep7 _ main_arg7 (by decide),
    keep6 _ main_v3 (by decide), keep6 _ main_v6 (by decide), keep6 _ main_v29 (by decide), s6_v64, keep6 _ main_arg6 (by decide), keep6 _ main_arg7 (by decide),
    keep5 _ main_v3 (by decide), keep5 _ main_v6 (by decide), keep5 _ main_v29 (by decide), s5_v47, keep5 _ main_arg4 (by decide), keep5 _ main_arg5 (by decide), keep5 _ main_arg6 (by decide), keep5 _ main_arg7 (by decide),
    keep4 _ main_v3 (by decide), keep4 _ main_v6 (by decide), keep4 _ main_v29 (by decide), s4_v46, keep4 _ main_arg4 (by decide), keep4 _ main_arg5 (by decide), keep4 _ main_arg6 (by decide), keep4 _ main_arg7 (by decide),
    keep3 _ main_v3 (by decide), keep3 _ main_v6 (by decide), s3_v29, keep3 _ main_arg0 (by decide), keep3 _ main_arg2 (by decide), keep3 _ main_arg3 (by decide), keep3 _ main_arg4 (by decide), keep3 _ main_arg5 (by decide), keep3 _ main_arg6 (by decide), keep3 _ main_arg7 (by decide),
    keep2 _ main_v3 (by decide), keep2 _ main_v6 (by decide), s2_v14, keep2 _ main_arg0 (by decide), keep2 _ main_arg2 (by decide), keep2 _ main_arg3 (by decide), keep2 _ main_arg4 (by decide), keep2 _ main_arg5 (by decide), keep2 _ main_arg6 (by decide), keep2 _ main_arg7 (by decide),
    keep1 _ main_v3 (by decide), keep1 _ main_v6 (by decide), s1_v12, s1_v13, s1_cst_2, keep1 _ main_arg0 (by decide), keep1 _ main_arg2 (by decide), keep1 _ main_arg3 (by decide), keep1 _ main_arg4 (by decide), keep1 _ main_arg5 (by decide), keep1 _ main_arg6 (by decide), keep1 _ main_arg7 (by decide),
    s0_v3, s0_v6, keep0 _ main_arg0 (by decide), keep0 _ main_arg2 (by decide), keep0 _ main_arg3 (by decide), keep0 _ main_arg4 (by decide), keep0 _ main_arg5 (by decide), keep0 _ main_arg6 (by decide), keep0 _ main_arg7 (by decide),
    dinvArr_eq]
  rfl

/-- Three rounds at an entry: the edge-by-edge form over the arrays' readings. -/
theorem threeRounds_apply (s d : IVec S650000 32) (nrm : FVec Ideal S650000 .f32) (x : FVec Ideal S50000x128 .f32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) (v : Fin 50000) (j : Fin 128) :
    threeRounds s d nrm x W1 b1 W2 b2 W3 b3 (ix2 v j)
      = Cert.Gcn.byEdges (fun e => nrm (ix1 e)) (Cert.Graph.rowOf (Cert.Graph.wrapCol s))
          (fun e => (Cert.Graph.rawCol d (ix2 e (0 : Fin 1))).toInt) (fun j => b3 (ix1 j))
          (Cert.Gcn.mm (Cert.Gcn.relu (Cert.Gcn.byEdges (fun e => nrm (ix1 e)) (Cert.Graph.rowOf (Cert.Graph.wrapCol s))
            (fun e => (Cert.Graph.rawCol d (ix2 e (0 : Fin 1))).toInt) (fun j => b2 (ix1 j))
            (Cert.Gcn.mm (Cert.Gcn.relu (Cert.Gcn.byEdges (fun e => nrm (ix1 e)) (Cert.Graph.rowOf (Cert.Graph.wrapCol s))
              (fun e => (Cert.Graph.rawCol d (ix2 e (0 : Fin 1))).toInt) (fun j => b1 (ix1 j))
              (Cert.Gcn.mm (fun v k => x (ix2 v k)) (fun k j => W1 (ix2 k j)))))
              (fun k j => W2 (ix2 k j)))))
            (fun k j => W3 (ix2 k j))) v j := by
  unfold threeRounds
  rw [roundArr_apply, relu_fun, round_fun, relu_fun, round_fun]

/-- The per-edge weights read as a function of the edge. -/
theorem norm_fun (e : IVec S2x600000 32) :
    (fun k : Fin 650000 => normArr (Cert.Graph.srcArr e) (Cert.Graph.dstArr e) (Cert.Graph.dinvArr (Cert.Graph.dstArr e)) (ix1 k))
      = fun k => Cert.Graph.dinvOf e (Cert.Graph.srcOf e k) * Cert.Graph.dinvOf e (Cert.Graph.dstcOf e k) :=
  funext fun k => normArr_apply _ _ _ k

/-- THE RESULT AT AN ENTRY. -/
theorem result_apply (W : Valuation τ sig (Elt Ideal)) (v : Fin 50000) (j : Fin 128) :
    after (Line.ops (F := Ideal)) W (Proc.devRef .tc main_v82) (ix2 v j)
      = Cert.Gcn.edgewise (Cert.Graph.dinvOf (W (Proc.devRef .tc main_arg1))) (Cert.Graph.srcOf (W (Proc.devRef .tc main_arg1)))
          (Cert.Graph.dstcOf (W (Proc.devRef .tc main_arg1))) (Cert.Graph.dstOf (W (Proc.devRef .tc main_arg1)))
          (fun v k => W (Proc.devRef .tc main_arg0) (ix2 v k)) (fun k j => W (Proc.devRef .tc main_arg2) (ix2 k j))
          (fun j => W (Proc.devRef .tc main_arg3) (ix1 j))
          (fun k j => W (Proc.devRef .tc main_arg4) (ix2 k j)) (fun j => W (Proc.devRef .tc main_arg5) (ix1 j))
          (fun k j => W (Proc.devRef .tc main_arg6) (ix2 k j)) (fun j => W (Proc.devRef .tc main_arg7) (ix1 j)) v j := by
  show after L W (Proc.devRef .tc main_v82) (ix2 v j) = _
  rw [result_arr, threeRounds_apply, norm_fun]
  rfl

/-! ## The arguments are left as they were -/

theorem args_kept0 (W : Valuation τ sig (Elt Ideal)) :
    after (Line.ops (F := Ideal)) W (Proc.devRef .tc main_arg0) = W (Proc.devRef .tc main_arg0) := by
  show after L W (Proc.devRef .tc main_arg0) = _
  rw [after_L, keep8 _ main_arg0 (by decide), keep7 _ main_arg0 (by decide), keep6 _ main_arg0 (by decide), keep5 _ main_arg0 (by decide), keep4 _ main_arg0 (by decide), keep3 _ main_arg0 (by decide), keep2 _ main_arg0 (by decide), keep1 _ main_arg0 (by decide), keep0 _ main_arg0 (by decide)]

theorem args_kept1 (W : Valuation τ sig (Elt Ideal)) :
    after (Line.ops (F := Ideal)) W (Proc.devRef .tc main_arg1) = W (Proc.devRef .tc main_arg1) := by
  show after L W (Proc.devRef .tc main_arg1) = _
  rw [after_L, keep8 _ main_arg1 (by decide), keep7 _ main_arg1 (by decide), keep6 _ main_arg1 (by decide), keep5 _ main_arg1 (by decide), keep4 _ main_arg1 (by decide), keep3 _ main_arg1 (by decide), keep2 _ main_arg1 (by decide), keep1 _ main_arg1 (by decide), keep0 _ main_arg1 (by decide)]

theorem args_kept2 (W : Valuation τ sig (Elt Ideal)) :
    after (Line.ops (F := Ideal)) W (Proc.devRef .tc main_arg2) = W (Proc.devRef .tc main_arg2) := by
  show after L W (Proc.devRef .tc main_arg2) = _
  rw [after_L, keep8 _ main_arg2 (by decide), keep7 _ main_arg2 (by decide), keep6 _ main_arg2 (by decide), keep5 _ main_arg2 (by decide), keep4 _ main_arg2 (by decide), keep3 _ main_arg2 (by decide), keep2 _ main_arg2 (by decide), keep1 _ main_arg2 (by decide), keep0 _ main_arg2 (by decide)]

theorem args_kept3 (W : Valuation τ sig (Elt Ideal)) :
    after (Line.ops (F := Ideal)) W (Proc.devRef .tc main_arg3) = W (Proc.devRef .tc main_arg3) := by
  show after L W (Proc.devRef .tc main_arg3) = _
  rw [after_L, keep8 _ main_arg3 (by decide), keep7 _ main_arg3 (by decide), keep6 _ main_arg3 (by decide), keep5 _ main_arg3 (by decide), keep4 _ main_arg3 (by decide), keep3 _ main_arg3 (by decide), keep2 _ main_arg3 (by decide), keep1 _ main_arg3 (by decide), keep0 _ main_arg3 (by decide)]

theorem args_kept4 (W : Valuation τ sig (Elt Ideal)) :
    after (Line.ops (F := Ideal)) W (Proc.devRef .tc main_arg4) = W (Proc.devRef .tc main_arg4) := by
  show after L W (Proc.devRef .tc main_arg4) = _
  rw [after_L, keep8 _ main_arg4 (by decide), keep7 _ main_arg4 (by decide), keep6 _ main_arg4 (by decide), keep5 _ main_arg4 (by decide), keep4 _ main_arg4 (by decide), keep3 _ main_arg4 (by decide), keep2 _ main_arg4 (by decide), keep1 _ main_arg4 (by decide), keep0 _ main_arg4 (by decide)]

theorem args_kept5 (W : Valuation τ sig (Elt Ideal)) :
    after (Line.ops (F := Ideal)) W (Proc.devRef .tc main_arg5) = W (Proc.devRef .tc main_arg5) := by
  show after L W (Proc.devRef .tc main_arg5) = _
  rw [after_L, keep8 _ main_arg5 (by decide), keep7 _ main_arg5 (by decide), keep6 _ main_arg5 (by decide), keep5 _ main_arg5 (by decide), keep4 _ main_arg5 (by decide), keep3 _ main_arg5 (by decide), keep2 _ main_arg5 (by decide), keep1 _ main_arg5 (by decide), keep0 _ main_arg5 (by decide)]

theorem args_kept6 (W : Valuation τ sig (Elt Ideal)) :
    after (Line.ops (F := Ideal)) W (Proc.devRef .tc main_arg6) = W (Proc.devRef .tc main_arg6) := by
  show after L W (Proc.devRef .tc main_arg6) = _
  rw [after_L, keep8 _ main_arg6 (by decide), keep7 _ main_arg6 (by decide), keep6 _ main_arg6 (by decide), keep5 _ main_arg6 (by decide), keep4 _ main_arg6 (by decide), keep3 _ main_arg6 (by decide), keep2 _ main_arg6 (by decide), keep1 _ main_arg6 (by decide), keep0 _ main_arg6 (by decide)]

theorem args_kept7 (W : Valuation τ sig (Elt Ideal)) :
    after (Line.ops (F := Ideal)) W (Proc.devRef .tc main_arg7) = W (Proc.devRef .tc main_arg7) := by
  show after L W (Proc.devRef .tc main_arg7) = _
  rw [after_L, keep8 _ main_arg7 (by decide), keep7 _ main_arg7 (by decide), keep6 _ main_arg7 (by decide), keep5 _ main_arg7 (by decide), keep4 _ main_arg7 (by decide), keep3 _ main_arg7 (by decide), keep2 _ main_arg7 (by decide), keep1 _ main_arg7 (by decide), keep0 _ main_arg7 (by decide)]

end Cert.ReferenceIdeal.RefValue

end
-- ==== Proof.lean ====
/-
  Three graph-convolution layers over 50000 nodes and 650000 edges (600000 given edges and one self-loop per node),
  computed two ways, are equal on the extended reals.

  Both programs build, from the table of edge ends, the node weights dinv v — the inverse square root of v's
  in-degree where it is positive, zero elsewhere — and both apply, three times, a dense product with a 128 × 128
  weight matrix followed by a neighbourhood sum and a bias (a rectifier after the first two). The reference weights
  every gathered row by norm e = dinv (src e) · dinv (dst e) and sums:  Σ_{e → v} norm e · (h·W)(src e, j) + b j.
  The kernel scales the rows of h·W by dinv inside the region that forms the product, sums the gathered rows unscaled on the
  host, and scales the sum by dinv v inside the next region, which also adds the bias, rectifies and forms the next
  product:  dinv v · Σ_{e → v} (dinv (src e) · (h·W)(src e, j)) + b j.
  The two agree because dinv v is a nonnegative real number — a nonnegative real factor distributes over a sum of
  extended reals, whatever the summands — and because an edge that lands on v names row v of the weight table
  (module Rounds has the algebra, module GraphFacts the two facts about the weights and the targets). No finiteness of the features
  or of the weight matrices is used: the proof never opens the precondition.

  The kernel's result is read off its run segment by segment (KernelRun, KernelHost, RegionValues, KernelValue), the
  reference's off the fold of its host operations (RefLine, RefValue); the three frames are the generated ones, the
  reference's being its run with the result dropped. The idealization rewrote nothing, so `preserves` is trivial.
-/
import proofs.«182050_j75342316306432_2_alg».proof.Defs
import proofs.«182050_j75342316306432_2_alg».proof.Proof.Gen.Kernel
import proofs.«182050_j75342316306432_2_alg».proof.Proof.Gen.Kernel.Skeleton
import proofs.«182050_j75342316306432_2_alg».proof.Proof.Gen.Kernel.Launch
import proofs.«182050_j75342316306432_2_alg».proof.Proof.Gen.Kernel.Points
import proofs.«182050_j75342316306432_2_alg».proof.Proof.Gen.Kernel.Frame
import proofs.«182050_j75342316306432_2_alg».proof.Proof.Gen.KernelIdeal
import proofs.«182050_j75342316306432_2_alg».proof.Proof.Gen.KernelIdeal.Skeleton
import proofs.«182050_j75342316306432_2_alg».proof.Proof.Gen.KernelIdeal.Launch
import proofs.«182050_j75342316306432_2_alg».proof.Proof.Gen.KernelIdeal.Points
import proofs.«182050_j75342316306432_2_alg».proof.Proof.Gen.KernelIdeal.Frame
import proofs.«182050_j75342316306432_2_alg».proof.Proof.Gen.ReferenceIdeal
import proofs.«182050_j75342316306432_2_alg».proof.Proof.Gen.Pre_finite_inputs
import proofs.«182050_j75342316306432_2_alg».proof.Proof.Rounds
import proofs.«182050_j75342316306432_2_alg».proof.Proof.GraphFacts
import proofs.«182050_j75342316306432_2_alg».proof.Proof.KernelRun
import proofs.«182050_j75342316306432_2_alg».proof.Proof.KernelValue
import proofs.«182050_j75342316306432_2_alg».proof.Proof.RefLine
import proofs.«182050_j75342316306432_2_alg».proof.Proof.RefValue
import Idealize.ShloMosaic.Adequacy
import Idealize.ShloMosaic.Init

noncomputable section

namespace Cert.Proof

open Idealize.ShloMosaic Idealize.ShloMosaic.ValueIdx Idealize.ShloMosaic.StableHlo Idealize.SL.Sem Cert.Kernel

/-- Three rounds, node by node and edge by edge, at the graph of a table of edge ends: the weights are nonnegative
    reals and a landing edge names its target's row. -/
theorem rounds_agree (e : IVec Cert.ReferenceIdeal.S2x600000 32)
    (x : Fin 50000 → Fin 128 → EReal) (W1 : Fin 128 → Fin 128 → EReal) (b1 : Fin 128 → EReal)
    (W2 : Fin 128 → Fin 128 → EReal) (b2 : Fin 128 → EReal) (W3 : Fin 128 → Fin 128 → EReal) (b3 : Fin 128 → EReal) :
    Cert.Gcn.nodewise (Cert.Graph.dinvOf e) (Cert.Graph.srcOf e) (Cert.Graph.dstOf e) x W1 b1 W2 b2 W3 b3
      = Cert.Gcn.edgewise (Cert.Graph.dinvOf e) (Cert.Graph.srcOf e) (Cert.Graph.dstcOf e) (Cert.Graph.dstOf e) x W1 b1 W2 b2 W3 b3 :=
  Cert.Gcn.nodewise_eq_edgewise _ _ _ _ (fun v => (Cert.Graph.dinvOf_nonneg_ne_top e v).1)
    (fun v => (Cert.Graph.dinvOf_nonneg_ne_top e v).2) (Cert.Graph.dstcOf_of_dstOf e) _ _ _ _ _ _ _

theorem frame_k : Cert.frame_Kernel := fun m ρ _ => Cert.Kernel.Gen.frame m ρ
theorem frame_ki : Cert.frame_KernelIdeal := fun m ρ _ => Cert.KernelIdeal.Gen.frame m ρ
/-- The reference's frame is its run with the result dropped: no operation writes an argument. -/
theorem frame_ri : Cert.frame_ReferenceIdeal := fun m ρ _ =>
  (θ_run Cert.ReferenceIdeal.defs _ _).mono (fun r h c =>
    ⟨(h c _).trans (Cert.ReferenceIdeal.RefValue.args_kept0 _),
     (h c _).trans (Cert.ReferenceIdeal.RefValue.args_kept1 _),
     (h c _).trans (Cert.ReferenceIdeal.RefValue.args_kept2 _),
     (h c _).trans (Cert.ReferenceIdeal.RefValue.args_kept3 _),
     (h c _).trans (Cert.ReferenceIdeal.RefValue.args_kept4 _),
     (h c _).trans (Cert.ReferenceIdeal.RefValue.args_kept5 _),
     (h c _).trans (Cert.ReferenceIdeal.RefValue.args_kept6 _),
     (h c _).trans (Cert.ReferenceIdeal.RefValue.args_kept7 _)⟩)
    (Cert.ReferenceIdeal.Line.run_fold (F := Ideal) m ρ)

/-- Both programs end with equal results: the kernel's is the three rounds node by node, the reference's the three
    rounds edge by edge, of arguments that agree. -/
theorem algebraic : Cert.algebraic_KernelIdeal_ReferenceIdeal := by
  intro m ρ m' ρ' _ hagree
  refine ⟨fun c => Cert.KernelIdeal.Gen.W10 m ρ c (Proc.devRef .tc Cert.KernelIdeal.main_v52),
    Cert.KernelIdeal.Whole.run_fold m ρ, ?_⟩
  refine (θ_run Cert.ReferenceIdeal.defs _ _).mono (fun r h c => ?_) (Cert.ReferenceIdeal.Line.run_fold (F := Ideal) m' ρ')
  obtain ⟨a0, a1, a2, a3, a4, a5, a6, a7⟩ := hagree c
  refine ⟨?_, (h c _).trans (Cert.ReferenceIdeal.RefValue.args_kept0 _),
    (h c _).trans (Cert.ReferenceIdeal.RefValue.args_kept1 _),
    (h c _).trans (Cert.ReferenceIdeal.RefValue.args_kept2 _),
    (h c _).trans (Cert.ReferenceIdeal.RefValue.args_kept3 _),
    (h c _).trans (Cert.ReferenceIdeal.RefValue.args_kept4 _),
    (h c _).trans (Cert.ReferenceIdeal.RefValue.args_kept5 _),
    (h c _).trans (Cert.ReferenceIdeal.RefValue.args_kept6 _),
    (h c _).trans (Cert.ReferenceIdeal.RefValue.args_kept7 _)⟩
  rw [h c Cert.ReferenceIdeal.main_v82]
  funext i
  obtain ⟨v, j, rfl⟩ : ∃ (v : Fin 50000) (j : Fin 128), i = ix2 v j := ⟨i 0, i 1, eq_ix2 i⟩
  rw [Cert.ReferenceIdeal.RefValue.result_apply]
  show _ = Cert.KernelIdeal.Gen.W10 m ρ c (Proc.devRef .tc Cert.KernelIdeal.main_v52) (ix2 v j)
  rw [Cert.KernelIdeal.Whole.result_apply m ρ c v j, rounds_agree]
  have e0 : launchContents m' c (Proc.devRef .tc Cert.ReferenceIdeal.main_arg0) = m ((c.tc : Thread Cert.KernelIdeal.nD Cert.KernelIdeal.τ).loc Cert.KernelIdeal.main_arg0) := a0
  have e1 : launchContents m' c (Proc.devRef .tc Cert.ReferenceIdeal.main_arg1) = m ((c.tc : Thread Cert.KernelIdeal.nD Cert.KernelIdeal.τ).loc Cert.KernelIdeal.main_arg1) := a1
  have e2 : launchContents m' c (Proc.devRef .tc Cert.ReferenceIdeal.main_arg2) = m ((c.tc : Thread Cert.KernelIdeal.nD Cert.KernelIdeal.τ).loc Cert.KernelIdeal.main_arg2) := a2
  have e3 : launchContents m' c (Proc.devRef .tc Cert.ReferenceIdeal.main_arg3) = m ((c.tc : Thread Cert.KernelIdeal.nD Cert.KernelIdeal.τ).loc Cert.KernelIdeal.main_arg3) := a3
  have e4 : launchContents m' c (Proc.devRef .tc Cert.ReferenceIdeal.main_arg4) = m ((c.tc : Thread Cert.KernelIdeal.nD Cert.KernelIdeal.τ).loc Cert.KernelIdeal.main_arg4) := a4
  have e5 : launchContents m' c (Proc.devRef .tc Cert.ReferenceIdeal.main_arg5) = m ((c.tc : Thread Cert.KernelIdeal.nD Cert.KernelIdeal.τ).loc Cert.KernelIdeal.main_arg5) := a5
  have e6 : launchContents m' c (Proc.devRef .tc Cert.ReferenceIdeal.main_arg6) = m ((c.tc : Thread Cert.KernelIdeal.nD Cert.KernelIdeal.τ).loc Cert.KernelIdeal.main_arg6) := a6
  have e7 : launchContents m' c (Proc.devRef .tc Cert.ReferenceIdeal.main_arg7) = m ((c.tc : Thread Cert.KernelIdeal.nD Cert.KernelIdeal.τ).loc Cert.KernelIdeal.main_arg7) := a7
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
